-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S4096x2048 : Shape := ⟨2, ![4096, 2048]⟩
abbrev S8192x1024 : Shape := ⟨2, ![8192, 1024]⟩
abbrev S160x4096 : Shape := ⟨2, ![160, 4096]⟩
abbrev S4096x128 : Shape := ⟨2, ![4096, 128]⟩
abbrev S4096 : Shape := ⟨1, ![4096]⟩
abbrev S4096x16 : Shape := ⟨2, ![4096, 16]⟩
abbrev S2048x4096 : Shape := ⟨2, ![2048, 4096]⟩
abbrev S2048 : Shape := ⟨1, ![2048]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x2048 : S_.BroadcastsInDim S4096x2048 (![] : Fin 0 → Fin S4096x2048.rank)
  reducesTo_S4096x2048_S_d0_1 : S4096x2048.ReducesTo [0, 1] S_
  bcast_S_S8192x1024 : S_.BroadcastsInDim S8192x1024 (![] : Fin 0 → Fin S8192x1024.rank)
  reducesTo_S8192x1024_S_d0_1 : S8192x1024.ReducesTo [0, 1] S_
  bcast_S_S160x4096 : S_.BroadcastsInDim S160x4096 (![] : Fin 0 → Fin S160x4096.rank)
  reducesTo_S160x4096_S_d0_1 : S160x4096.ReducesTo [0, 1] S_
  bcast_S_S4096x128 : S_.BroadcastsInDim S4096x128 (![] : Fin 0 → Fin S4096x128.rank)
  reducesTo_S4096x128_S_d0_1 : S4096x128.ReducesTo [0, 1] S_
  bcast_S_S4096 : S_.BroadcastsInDim S4096 (![] : Fin 0 → Fin S4096.rank)
  reducesTo_S4096_S_d0 : S4096.ReducesTo [0] S_
  bcast_S_S4096x16 : S_.BroadcastsInDim S4096x16 (![] : Fin 0 → Fin S4096x16.rank)
  reducesTo_S4096x16_S_d0_1 : S4096x16.ReducesTo [0, 1] S_
  bcast_S_S2048x4096 : S_.BroadcastsInDim S2048x4096 (![] : Fin 0 → Fin S2048x4096.rank)
  reducesTo_S2048x4096_S_d0_1 : S2048x4096.ReducesTo [0, 1] S_
  bcast_S_S2048 : S_.BroadcastsInDim S2048 (![] : Fin 0 → Fin S2048.rank)
  reducesTo_S2048_S_d0 : S2048.ReducesTo [0] S_

variable [Facts]

def fn_part3 {F : FTy → Type} [FloatOps F] (main_arg11 : FVec F S2048 .f32) (main_v48 : IVec S_ 1) (main_v49 : FVec F S2048 .f32) (main_v50 : FVec F S2048 .f32) : IVec S_ 1 :=
  let main_v51 : IVec S2048 1 := cmpf .olt main_v49 main_v50
  let main_c_19 : IVec S_ 1 := constantI S_ 1 1#1
  let main_v52 : IVec S_ 1 := (fun x v => Host.reduce IntOp.andi x v reducesTo_S2048_S_d0 h_S_) main_v51 main_c_19
  let main_v53 : IVec S_ 1 := andi main_v48 main_v52
  let main_v54 : FVec F S2048 .f32 := Host.absf main_arg11
  let main_cst_20 : FVec F S_ .f32 := constant S_ .f32 0x7F800000#32
  let main_v55 : FVec F S2048 .f32 := broadcastInDim S2048 ![] bcast_S_S2048 main_cst_20
  let main_v56 : IVec S2048 1 := cmpf .olt main_v54 main_v55
  let main_c_21 : IVec S_ 1 := constantI S_ 1 1#1
  let main_v57 : IVec S_ 1 := (fun x v => Host.reduce IntOp.andi x v reducesTo_S2048_S_d0 h_S_) main_v56 main_c_21
  let main_v58 : IVec S_ 1 := andi main_v53 main_v57
  main_v58

def fn_part2 {F : FTy → Type} [FloatOps F] (main_arg7 : FVec F S4096x16 .f32) (main_arg8 : FVec F S4096 .f32) (main_arg9 : FVec F S2048x4096 .f32) (main_arg10 : FVec F S2048 .f32) (main_arg11 : FVec F S2048 .f32) (main_v33 : IVec S_ 1) : IVec S_ 1 :=
  let main_v34 : FVec F S4096x16 .f32 := Host.absf main_arg7
  let main_cst_12 : FVec F S_ .f32 := constant S_ .f32 0x7F800000#32
  let main_v35 : FVec F S4096x16 .f32 := broadcastInDim S4096x16 ![] bcast_S_S4096x16 main_cst_12
  let main_v36 : IVec S4096x16 1 := cmpf .olt main_v34 main_v35
  let main_c_13 : IVec S_ 1 := constantI S_ 1 1#1
  let main_v37 : IVec S_ 1 := (fun x v => Host.reduce IntOp.andi x v reducesTo_S4096x16_S_d0_1 h_S_) main_v36 main_c_13
  let main_v38 : IVec S_ 1 := andi main_v33 main_v37
  let main_v39 : FVec F S4096 .f32 := Host.absf main_arg8
  let main_cst_14 : FVec F S_ .f32 := constant S_ .f32 0x7F800000#32
  let main_v40 : FVec F S4096 .f32 := broadcastInDim S4096 ![] bcast_S_S4096 main_cst_14
  let main_v41 : IVec S4096 1 := cmpf .olt main_v39 main_v40
  let main_c_15 : IVec S_ 1 := constantI S_ 1 1#1
  let main_v42 : IVec S_ 1 := (fun x v => Host.reduce IntOp.andi x v reducesTo_S4096_S_d0 h_S_) main_v41 main_c_15
  let main_v43 : IVec S_ 1 := andi main_v38 main_v42
  let main_v44 : FVec F S2048x4096 .f32 := Host.absf main_arg9
  let main_cst_16 : FVec F S_ .f32 := constant S_ .f32 0x7F800000#32
  let main_v45 : FVec F S2048x4096 .f32 := broadcastInDim S2048x4096 ![] bcast_S_S2048x4096 main_cst_16
  let main_v46 : IVec S2048x4096 1 := cmpf .olt main_v44 main_v45
  let main_c_17 : IVec S_ 1 := constantI S_ 1 1#1
  let main_v47 : IVec S_ 1 := (fun x v => Host.reduce IntOp.andi x v reducesTo_S2048x4096_S_d0_1 h_S_) main_v46 main_c_17
  let main_v48 : IVec S_ 1 := andi main_v43 main_v47
  let main_v49 : FVec F S2048 .f32 := Host.absf main_arg10
  let main_cst_18 : FVec F S_ .f32 := constant S_ .f32 0x7F800000#32
  let main_v50 : FVec F S2048 .f32 := broadcastInDim S2048 ![] bcast_S_S2048 main_cst_18
  fn_part3 (F := F) main_arg11 main_v48 main_v49 main_v50

def fn_part1 {F : FTy → Type} [FloatOps F] (main_arg4 : FVec F S160x4096 .f32) (main_arg5 : FVec F S4096x128 .f32) (main_arg6 : FVec F S4096 .f32) (main_arg7 : FVec F S4096x16 .f32) (main_arg8 : FVec F S4096 .f32) (main_arg9 : FVec F S2048x4096 .f32) (main_arg10 : FVec F S2048 .f32) (main_arg11 : FVec F S2048 .f32) (main_v13 : IVec S_ 1) (main_v16 : IVec S4096x2048 1) : IVec S_ 1 :=
  let main_c_5 : IVec S_ 1 := constantI S_ 1 1#1
  let main_v17 : IVec S_ 1 := (fun x v => Host.reduce IntOp.andi x v reducesTo_S4096x2048_S_d0_1 h_S_) main_v16 main_c_5
  let main_v18 : IVec S_ 1 := andi main_v13 main_v17
  let main_v19 : FVec F S160x4096 .f32 := Host.absf main_arg4
  let main_cst_6 : FVec F S_ .f32 := constant S_ .f32 0x7F800000#32
  let main_v20 : FVec F S160x4096 .f32 := broadcastInDim S160x4096 ![] bcast_S_S160x4096 main_cst_6
  let main_v21 : IVec S160x4096 1 := cmpf .olt main_v19 main_v20
  let main_c_7 : IVec S_ 1 := constantI S_ 1 1#1
  let main_v22 : IVec S_ 1 := (fun x v => Host.reduce IntOp.andi x v reducesTo_S160x4096_S_d0_1 h_S_) main_v21 main_c_7
  let main_v23 : IVec S_ 1 := andi main_v18 main_v22
  let main_v24 : FVec F S4096x128 .f32 := Host.absf main_arg5
  let main_cst_8 : FVec F S_ .f32 := constant S_ .f32 0x7F800000#32
  let main_v25 : FVec F S4096x128 .f32 := broadcastInDim S4096x128 ![] bcast_S_S4096x128 main_cst_8
  let main_v26 : IVec S4096x128 1 := cmpf .olt main_v24 main_v25
  let main_c_9 : IVec S_ 1 := constantI S_ 1 1#1
  let main_v27 : IVec S_ 1 := (fun x v => Host.reduce IntOp.andi x v reducesTo_S4096x128_S_d0_1 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S4096x1024 .f32) (main_arg1 : FVec F S4096x2048 .f32) (main_arg2 : FVec F S8192x1024 .f32) (main_arg3 : FVec F S4096x2048 .f32) (main_arg4 : FVec F S160x4096 .f32) (main_arg5 : FVec F S4096x128 .f32) (main_arg6 : FVec F S4096 .f32) (main_arg7 : FVec F S4096x16 .f32) (main_arg8 : FVec F S4096 .f32) (main_arg9 : FVec F S2048x4096 .f32) (main_arg10 : FVec F S2048 .f32) (main_arg11 : FVec F S2048 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S4096x2048 .f32 := Host.absf main_arg3
  let main_cst_4 : FVec F S_ .f32 := constant S_ .f32 0x7F800000#32
  let main_v15 : FVec F S4096x2048 .f32 := broadcastInDim S4096x2048 ![] bcast_S_S4096x2048 main_cst_4
  let main_v16 : IVec S4096x2048 1 := cmpf .olt main_v14 main_v15
  fn_part1 (F := F) main_arg4 main_arg5 main_arg6 main_arg7 main_arg8 main_arg9 main_arg10 main_arg11 main_v13 main_v16
-- ==== Kernel.lean ====
abbrev S4096x1024 : Shape := ⟨2, ![4096, 1024]⟩
abbrev S4096x2048 : Shape := ⟨2, ![4096, 2048]⟩
abbrev S8192x1024 : Shape := ⟨2, ![8192, 1024]⟩
abbrev S160x4096 : Shape := ⟨2, ![160, 4096]⟩
abbrev S4096x128 : Shape := ⟨2, ![4096, 128]⟩
abbrev S4096 : Shape := ⟨1, ![4096]⟩
abbrev S4096x16 : Shape := ⟨2, ![4096, 16]⟩
abbrev S2048x4096 : Shape := ⟨2, ![2048, 4096]⟩
abbrev S2048 : Shape := ⟨1, ![2048]⟩
abbrev S1024x4096 : Shape := ⟨2, ![1024, 4096]⟩
abbrev S128x4096 : Shape := ⟨2, ![128, 4096]⟩
abbrev S16x4096 : Shape := ⟨2, ![16, 4096]⟩
abbrev S1x4096 : Shape := ⟨2, ![1, 4096]⟩
abbrev S1x2048 : Shape := ⟨2, ![1, 2048]⟩
abbrev S64x1024 : Shape := ⟨2, ![64, 1024]⟩
abbrev S64x2048 : Shape := ⟨2, ![64, 2048]⟩
abbrev S64x4096 : Shape := ⟨2, ![64, 4096]⟩
abbrev S64x128 : Shape := ⟨2, ![64, 128]⟩
abbrev S64x16 : Shape := ⟨2, ![64, 16]⟩
abbrev S64 : Shape := ⟨1, ![64]⟩
abbrev S64x1 : Shape := ⟨2, ![64, 1]⟩

abbrev nBuf : Space → Nat
  | .hbm => 38
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S8192x1024, .f32⟩
  | .hbm, ⟨3, _⟩ => ⟨S4096x2048, .f32⟩
  | .hbm, ⟨4, _⟩ => ⟨S160x4096, .f32⟩
  | .hbm, ⟨5, _⟩ => ⟨S4096x128, .f32⟩
  | .hbm, ⟨6, _⟩ => ⟨S4096, .f32⟩
  | .hbm, ⟨7, _⟩ => ⟨S4096x16, .f32⟩
  | .hbm, ⟨8, _⟩ => ⟨S4096, .f32⟩
  | .hbm, ⟨9, _⟩ => ⟨S2048x4096, .f32⟩
  | .hbm, ⟨10, _⟩ => ⟨S2048, .f32⟩
  | .hbm, ⟨11, _⟩ => ⟨S2048, .f32⟩
  | .hbm, ⟨12, _⟩ => ⟨S4096x1024, .f32⟩
  | .hbm, ⟨13, _⟩ => ⟨S1024x4096, .f32⟩
  | .hbm, ⟨14, _⟩ => ⟨S1024x4096, .bf16⟩
  | .hbm, ⟨15, _⟩ => ⟨S4096x1024, .f32⟩
  | .hbm, ⟨16, _⟩ => ⟨S1024x4096, .f32⟩
  | .hbm, ⟨17, _⟩ => ⟨S1024x4096, .bf16⟩
  | .hbm, ⟨18, _⟩ => ⟨S2048x4096, .f32⟩
  | .hbm, ⟨19, _⟩ => ⟨S2048x4096, .bf16⟩
  | .hbm, ⟨20, _⟩ => ⟨S128x4096, .f32⟩
  | .hbm, ⟨21, _⟩ => ⟨S4096x128, .f32⟩
  | .hbm, ⟨22, _⟩ => ⟨S4096x128, .bf16⟩
  | .hbm, ⟨23, _⟩ => ⟨S16x4096, .f32⟩
  | .hbm, ⟨24, _⟩ => ⟨S4096x16, .f32⟩
  | .hbm, ⟨25, _⟩ => ⟨S4096x16, .bf16⟩
  | .hbm, ⟨26, _⟩ => ⟨S16x4096, .f32⟩
  | .hbm, ⟨27, _⟩ => ⟨S4096x16, .f32⟩
  | .hbm, ⟨28, _⟩ => ⟨S4096x16, .bf16⟩
  | .hbm, ⟨29, _⟩ => ⟨S128x4096, .f32⟩
  | .hbm, ⟨30, _⟩ => ⟨S128x4096, .bf16⟩
  | .hbm, ⟨31, _⟩ => ⟨S4096x2048, .f32⟩
  | .hbm, ⟨32, _⟩ => ⟨S4096x2048, .bf16⟩
  | .hbm, ⟨33, _⟩ => ⟨S1x4096, .f32⟩
  | .hbm, ⟨34, _⟩ => ⟨S1x4096, .f32⟩
  | .hbm, ⟨35, _⟩ => ⟨S1x2048, .f32⟩
  | .hbm, ⟨36, _⟩ => ⟨S1x2048, .f32⟩
  | .hbm, ⟨37, _⟩ => ⟨S4096x2048, .f32⟩
  | .local _ .vmem, ⟨0, _⟩ => ⟨S64x1024, .f32⟩
  | .local _ .vmem, ⟨1, _⟩ => ⟨S64x1024, .f32⟩
  | .local _ .vmem, ⟨2, _⟩ => ⟨S64x2048, .f32⟩
  | .local _ .vmem, ⟨3, _⟩ => ⟨S64x2048, .f32⟩
  | .local _ .vmem, ⟨4, _⟩ => ⟨S1024x4096, .bf16⟩
  | .local _ .vmem, ⟨5, _⟩ => ⟨S1024x4096, .bf16⟩
  | .local _ .vmem, ⟨6, _⟩ => ⟨S2048x4096, .bf16⟩
  | .local _ .vmem, ⟨7, _⟩ => ⟨S4096x128, .bf16⟩
  | .local _ .vmem, ⟨8, _⟩ => ⟨S4096x16, .bf16⟩
  | .local _ .vmem, ⟨9, _⟩ => ⟨S4096x16, .bf16⟩
  | .local _ .vmem, ⟨10, _⟩ => ⟨S128x4096, .bf16⟩
  | .local _ .vmem, ⟨11, _⟩ => ⟨S1x4096, .f32⟩
  | .local _ .vmem, ⟨12, _⟩ => ⟨S1x4096, .f32⟩
  | .local _ .vmem, ⟨13, _⟩ => ⟨S4096x2048, .bf16⟩
  | .local _ .vmem, ⟨14, _⟩ => ⟨S1x2048, .f32⟩
  | .local _ .vmem, ⟨15, _⟩ => ⟨S1x2048, .f32⟩
  | .local _ .vmem, ⟨16, _⟩ => ⟨S64x2048, .f32⟩
  | .local _ .vmem, ⟨17, _⟩ => ⟨S64x2048, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg14_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem14_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4096x16 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4096x16 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x4096 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x4096 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x4096 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4096x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S64x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

class Facts₀ : Prop where
  slices_S8192x1024_S4096x1024_0_0 : S8192x1024.Slices ![0, 0] S4096x1024
  transposes_S4096x1024_S1024x4096_1_0 : S4096x1024.Transposes [1, 0] S1024x4096
  bitsLt_bf16_f32 : FTy.bits .bf16 < FTy.bits .f32
  slices_S8192x1024_S4096x1024_4096_0 : S8192x1024.Slices ![4096, 0] S4096x1024
  transposes_S4096x2048_S2048x4096_1_0 : S4096x2048.Transposes [1, 0] S2048x4096
  slices_S160x4096_S128x4096_0_0 : S160x4096.Slices ![0, 0] S128x4096
  transposes_S128x4096_S4096x128_1_0 : S128x4096.Transposes [1, 0] S4096x128
  slices_S160x4096_S16x4096_128_0 : S160x4096.Slices ![128, 0] S16x4096
  transposes_S16x4096_S4096x16_1_0 : S16x4096.Transposes [1, 0] S4096x16
  slices_S160x4096_S16x4096_144_0 : S160x4096.Slices ![144, 0] S16x4096
  transposes_S4096x128_S128x4096_1_0 : S4096x128.Transposes [1, 0] S128x4096
  transposes_S2048x4096_S4096x2048_1_0 : S2048x4096.Transposes [1, 0] S4096x2048
  shapeCasts_S4096_S1x4096 : S4096.ShapeCasts S1x4096
  shapeCasts_S2048_S1x2048 : S2048.ShapeCasts S1x2048
  inb_S64x1024_S64x1024_0_0 : ∀ a, (![0, 0] : Fin 2 → Nat) a + S64x1024.size a ≤ S64x1024.size a
  h_S64x1024 : 0 < S64x1024.numel
  inb_S64x2048_S64x2048_0_0 : ∀ a, (![0, 0] : Fin 2 → Nat) a + S64x2048.size a ≤ S64x2048.size a
  h_S64x2048 : 0 < S64x2048.numel
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S2048x4096_S2048x4096_0_0 : ∀ a, (![0, 0] : Fin 2 → Nat) a + S2048x4096.size a ≤ S2048x4096.size a
  h_S2048x4096 : 0 < S2048x4096.numel
  shapeCasts_S2048x4096_S2048x4096 : S2048x4096.ShapeCasts S2048x4096
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S4096x16_S4096x16_0_0 : ∀ a, (![0, 0] : Fin 2 → Nat) a + S4096x16.size a ≤ S4096x16.size a
  h_S4096x16 : 0 < S4096x16.numel
  shapeCasts_S4096x16_S4096x16 : S4096x16.ShapeCasts S4096x16
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S64x4096 : S1x4096.Broadcasts S64x4096
  reduces_S64x16_S64 : S64x16.Reduces [1] S64
  shapeCasts_S64_S64x1 : S64.ShapeCasts S64x1
  broadcasts_S64x1_S64x4096 : S64x1.Broadcasts S64x4096
  inb_S4096x2048_S4096x2048_0_0 : ∀ a, (![0, 0] : Fin 2 → Nat) a + S4096x2048.size a ≤ S4096x2048.size a
  h_S4096x2048 : 0 < S4096x2048.numel
  shapeCasts_S4096x2048_S4096x2048 : S4096x2048.ShapeCasts S4096x2048
  reduces_S64x2048_S64 : S64x2048.Reduces [1] S64
  broadcasts_S64x1_S64x2048 : S64x1.Broadcasts S64x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S64x2048 : S1x2048.Broadcasts S64x2048
  dot_S64x1024_S1024x4096_S64x4096_1_0_0_1_n_n_wf : DotDims.WF S64x1024 S1024x4096 S64x4096 [1] [0] [0] [1] [] []
  dot_S64x2048_S2048x4096_S64x4096_1_0_0_1_n_n_wf : DotDims.WF S64x2048 S2048x4096 S64x4096 [1] [0] [0] [1] [] []
  dot_S64x4096_S4096x128_S64x128_1_0_0_1_n_n_wf : DotDims.WF S64x4096 S4096x128 S64x128 [1] [0] [0] [1] [] []
  dot_S64x4096_S4096x16_S64x16_1_0_0_1_n_n_wf : DotDims.WF S64x4096 S4096x16 S64x16 [1] [0] [0] [1] [] []
  dot_S64x128_S128x4096_S64x4096_1_0_0_1_n_n_wf : DotDims.WF S64x128 S128x4096 S64x4096 [1] [0] [0] [1] [] []
  dot_S64x4096_S4096x2048_S64x2048_1_0_0_1_n_n_wf : DotDims.WF S64x4096 S4096x2048 S64x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x1024.size a ≤ S4096x1024.size a
  hwx0_0 : ∀ i : grid0.Coords, EltTy.bits .f32 = 32 ∨ (Rect.block (s := S4096x1024) S64x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x2048.size a ≤ S4096x2048.size a
  hwx0_1 : ∀ i : grid0.Coords, EltTy.bits .f32 = 32 ∨ (Rect.block (s := S4096x2048) S64x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x4096.size a ≤ S1024x4096.size a
  hwx0_2 : ∀ i : grid0.Coords, EltTy.bits .bf16 = 32 ∨ (Rect.block (s := S1024x4096) S1024x4096.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x4096.size a ≤ S1024x4096.size a
  hwx0_3 : ∀ i : grid0.Coords, EltTy.bits .bf16 = 32 ∨ (Rect.block (s := S1024x4096) S1024x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2048x4096.size a ≤ S2048x4096.size a
  hwx0_4 : ∀ i : grid0.Coords, EltTy.bits .bf16 = 32 ∨ (Rect.block (s := S2048x4096) S2048x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4096x128.size a ≤ S4096x128.size a
  hwx0_5 : ∀ i : grid0.Coords, EltTy.bits .bf16 = 32 ∨ (Rect.block (s := S4096x128) S4096x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S4096x16.size a ≤ S4096x16.size a
  hwx0_6 : ∀ i : grid0.Coords, EltTy.bits .bf16 = 32 ∨ (Rect.block (s := S4096x16) S4096x16.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S4096x16.size a ≤ S4096x16.size a
  hwx0_7 : ∀ i : grid0.Coords, EltTy.bits .bf16 = 32 ∨ (Rect.block (s := S4096x16) S4096x16.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x4096.size a ≤ S128x4096.size a
  hwx0_8 : ∀ i : grid0.Coords, EltTy.bits .bf16 = 32 ∨ (Rect.block (s := S128x4096) S128x4096.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x4096.size a ≤ S1x4096.size a
  hwx0_9 : ∀ i : grid0.Coords, EltTy.bits .f32 = 32 ∨ (Rect.block (s := S1x4096) S1x4096.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x4096.size a ≤ S1x4096.size a
  hwx0_10 : ∀ i : grid0.Coords, EltTy.bits .f32 = 32 ∨ (Rect.block (s := S1x4096) S1x4096.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S4096x2048.size a ≤ S4096x2048.size a
  hwx0_11 : ∀ i : grid0.Coords, EltTy.bits .bf16 = 32 ∨ (Rect.block (s := S4096x2048) S4096x2048.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x2048.size a ≤ S1x2048.size a
  hwx0_12 : ∀ i : grid0.Coords, EltTy.bits .f32 = 32 ∨ (Rect.block (s := S1x2048) S1x2048.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x2048.size a ≤ S1x2048.size a
  hwx0_13 : ∀ i : grid0.Coords, EltTy.bits .f32 = 32 ∨ (Rect.block (s := S1x2048) S1x2048.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S64x2048.size a ≤ S4096x2048.size a
  hwx0_14 : ∀ i : grid0.Coords, EltTy.bits .f32 = 32 ∨ (Rect.block (s := S4096x2048) S64x2048.size (cc0_transform_14 i) (hinb0_14 i)).WholeWords (EltTy.packing .f32)

variable [Facts₀]

def dot_S64x1024_S1024x4096_S64x4096_1_0_0_1_n_n : DotDims S64x1024 S1024x4096 S64x4096 where
  lhsContracting := [1]
  rhsContracting := [0]
  lhsNonContracting := [0]
  rhsNonContracting := [1]
  lhsBatch := []
  rhsBatch := []
  wf := dot_S64x1024_S1024x4096_S64x4096_1_0_0_1_n_n_wf
def dot_S64x2048_S2048x4096_S64x4096_1_0_0_1_n_n : DotDims S64x2048 S2048x4096 S64x4096 where
  lhsContracting := [1]
  rhsContracting := [0]
  lhsNonContracting := [0]
  rhsNonContracting := [1]
  lhsBatch := []
  rhsBatch := []
  wf := dot_S64x2048_S2048x4096_S64x4096_1_0_0_1_n_n_wf
def dot_S64x4096_S4096x128_S64x128_1_0_0_1_n_n : DotDims S64x4096 S4096x128 S64x128 where
  lhsContracting := [1]
  rhsContracting := [0]
  lhsNonContracting := [0]
  rhsNonContracting := [1]
  lhsBatch := []
  rhsBatch := []
  wf := dot_S64x4096_S4096x128_S64x128_1_0_0_1_n_n_wf
def dot_S64x4096_S4096x16_S64x16_1_0_0_1_n_n : DotDims S64x4096 S4096x16 S64x16 where
  lhsContracting := [1]
  rhsContracting := [0]
  lhsNonContracting := [0]
  rhsNonContracting := [1]
  lhsBatch := []
  rhsBatch := []
  wf := dot_S64x4096_S4096x16_S64x16_1_0_0_1_n_n_wf
def dot_S64x128_S128x4096_S64x4096_1_0_0_1_n_n : DotDims S64x128 S128x4096 S64x4096 where
  lhsContracting := [1]
  rhsContracting := [0]
  lhsNonContracting := [0]
  rhsNonContracting := [1]
  lhsBatch := []
  rhsBatch := []
  wf := dot_S64x128_S128x4096_S64x4096_1_0_0_1_n_n_wf
def dot_S64x4096_S4096x2048_S64x2048_1_0_0_1_n_n : DotDims S64x4096 S4096x2048 S64x2048 where
  lhsContracting := [1]
  rhsContracting := [0]
  lhsNonContracting := [0]
  rhsNonContracting := [1]
  lhsBatch := []
  rhsBatch := []
  wf := dot_S64x4096_S4096x2048_S64x2048_1_0_0_1_n_n_wf

abbrev win0_0 : Pipeline.Window sig grid0 :=
  Pipeline.Window.ofSpec (Memref.whole main_arg0) S64x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S2048x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S4096x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v13) S4096x16.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v16) S4096x16.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v18) S128x4096.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v21) S1x4096.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v22) S1x4096.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v20) S4096x2048.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v23) S1x2048.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v24) S1x2048.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v25) S64x2048.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S4096x2048 : Shape := ⟨2, ![4096, 2048]⟩
abbrev S8192x1024 : Shape := ⟨2, ![8192, 1024]⟩
abbrev S160x4096 : Shape := ⟨2, ![160, 4096]⟩
abbrev S4096x128 : Shape := ⟨2, ![4096, 128]⟩
abbrev S4096 : Shape := ⟨1, ![4096]⟩
abbrev S4096x16 : Shape := ⟨2, ![4096, 16]⟩
abbrev S2048x4096 : Shape := ⟨2, ![2048, 4096]⟩
abbrev S2048 : Shape := ⟨1, ![2048]⟩
abbrev S1024x8192 : Shape := ⟨2, ![1024, 8192]⟩
abbrev S4096x8192 : Shape := ⟨2, ![4096, 8192]⟩
abbrev S4096x4096 : Shape := ⟨2, ![4096, 4096]⟩
abbrev S_ : Shape := ⟨0, ![]⟩
abbrev S4096x160 : Shape := ⟨2, ![4096, 160]⟩
abbrev S128x4096 : Shape := ⟨2, ![128, 4096]⟩
abbrev S1x4096 : Shape := ⟨2, ![1, 4096]⟩
abbrev S4096x1 : Shape := ⟨2, ![4096, 1]⟩
abbrev S1x2048 : Shape := ⟨2, ![1, 2048]⟩

abbrev nBuf : Space → Nat
  | .hbm => 105
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S8192x1024, .f32⟩
  | .hbm, ⟨3, _⟩ => ⟨S4096x2048, .f32⟩
  | .hbm, ⟨4, _⟩ => ⟨S160x4096, .f32⟩
  | .hbm, ⟨5, _⟩ => ⟨S4096x128, .f32⟩
  | .hbm, ⟨6, _⟩ => ⟨S4096, .f32⟩
  | .hbm, ⟨7, _⟩ => ⟨S4096x16, .f32⟩
  | .hbm, ⟨8, _⟩ => ⟨S4096, .f32⟩
  | .hbm, ⟨9, _⟩ => ⟨S2048x4096, .f32⟩
  | .hbm, ⟨10, _⟩ => ⟨S2048, .f32⟩
  | .hbm, ⟨11, _⟩ => ⟨S2048, .f32⟩
  | .hbm, ⟨12, _⟩ => ⟨S1024x8192, .f32⟩
  | .hbm, ⟨13, _⟩ => ⟨S4096x8192, .f32⟩
  | .hbm, ⟨14, _⟩ => ⟨S4096x4096, .f32⟩
  | .hbm, ⟨15, _⟩ => ⟨S4096x4096, .f32⟩
  | .hbm, ⟨16, _⟩ => ⟨S2048x4096, .f32⟩
  | .hbm, ⟨17, _⟩ => ⟨S4096x4096, .f32⟩
  | .hbm, ⟨18, _⟩ => ⟨S4096x4096, .f32⟩
  | .hbm, ⟨19, _⟩ => ⟨S4096x4096, .f32⟩
  | .hbm, ⟨20, _⟩ => ⟨S4096x4096, .f32⟩
  | .hbm, ⟨21, _⟩ => ⟨S_, .f32⟩
  | .hbm, ⟨22, _⟩ => ⟨S4096x4096, .f32⟩
  | .hbm, ⟨23, _⟩ => ⟨S4096x4096, .f32⟩
  | .hbm, ⟨24, _⟩ => ⟨S_, .f32⟩
  | .hbm, ⟨25, _⟩ => ⟨S4096x4096, .f32⟩
  | .hbm, ⟨26, _⟩ => ⟨S4096x4096, .f32⟩
  | .hbm, ⟨27, _⟩ => ⟨S4096x4096, .f32⟩
  | .hbm, ⟨28, _⟩ => ⟨S4096x160, .f32⟩
  | .hbm, ⟨29, _⟩ => ⟨S4096x160, .f32⟩
  | .hbm, ⟨30, _⟩ => ⟨S4096x128, .f32⟩
  | .hbm, ⟨31, _⟩ => ⟨S4096x16, .f32⟩
  | .hbm, ⟨32, _⟩ => ⟨S4096x16, .f32⟩
  | .hbm, ⟨33, _⟩ => ⟨S128x4096, .f32⟩
  | .hbm, ⟨34, _⟩ => ⟨S4096x4096, .f32⟩
  | .hbm, ⟨35, _⟩ => ⟨S1x4096, .f32⟩
  | .hbm, ⟨36, _⟩ => ⟨S4096x4096, .f32⟩
  | .hbm, ⟨37, _⟩ => ⟨S4096x4096, .f32⟩
  | .hbm, ⟨38, _⟩ => ⟨S_, .f32⟩
  | .hbm, ⟨39, _⟩ => ⟨S4096x4096, .f32⟩
  | .hbm, ⟨40, _⟩ => ⟨S4096x4096, .f32⟩
  | .hbm, ⟨41, _⟩ => ⟨S4096x4096, .f32⟩
  | .hbm, ⟨42, _⟩ => ⟨S4096x4096, .f32⟩
  | .hbm, ⟨43, _⟩ => ⟨S4096x4096, .i1⟩
  | .hbm, ⟨44, _⟩ => ⟨S4096x4096, .f32⟩
  | .hbm, ⟨45, _⟩ => ⟨S4096x4096, .f32⟩
  | .hbm, ⟨46, _⟩ => ⟨S4096x4096, .f32⟩
  | .hbm, ⟨47, _⟩ => ⟨S4096x4096, .f32⟩
  | .hbm, ⟨48, _⟩ => ⟨S4096x4096, .f32⟩
  | .hbm, ⟨49, _⟩ => ⟨S4096x4096, .f32⟩
  | .hbm, ⟨50, _⟩ => ⟨S4096x4096, .f32⟩
  | .hbm, ⟨51, _⟩ => ⟨S4096x4096, .f32⟩
  | .hbm, ⟨52, _⟩ => ⟨S4096x16, .f32⟩
  | .hbm, ⟨53, _⟩ => ⟨S_, .f32⟩
  | .hbm, ⟨54, _⟩ => ⟨S4096, .f32⟩
  | .hbm, ⟨55, _⟩ => ⟨S4096x1, .f32⟩
  | .hbm, ⟨56, _⟩ => ⟨S4096x4096, .f32⟩
  | .hbm, ⟨57, _⟩ => ⟨S4096x4096, .f32⟩
  | .hbm, ⟨58, _⟩ => ⟨S4096x4096, .f32⟩
  | .hbm, ⟨59, _⟩ => ⟨S1x4096, .f32⟩
  | .hbm, ⟨60, _⟩ => ⟨S4096x4096, .f32⟩
  | .hbm, ⟨61, _⟩ => ⟨S4096x4096, .f32⟩
  | .hbm, ⟨62, _⟩ => ⟨S4096x4096, .f32⟩
  | .hbm, ⟨63, _⟩ => ⟨S4096x4096, .f32⟩
  | .hbm, ⟨64, _⟩ => ⟨S4096x4096, .f32⟩
  | .hbm, ⟨65, _⟩ => ⟨S_, .f32⟩
  | .hbm, ⟨66, _⟩ => ⟨S4096x4096, .f32⟩
  | .hbm, ⟨67, _⟩ => ⟨S4096x4096, .f32⟩
  | .hbm, ⟨68, _⟩ => ⟨S_, .f32⟩
  | .hbm, ⟨69, _⟩ => ⟨S4096x4096, .f32⟩
  | .hbm, ⟨70, _⟩ => ⟨S4096x4096, .f32⟩
  | .hbm, ⟨71, _⟩ => ⟨S4096x4096, .f32⟩
  | .hbm, ⟨72, _⟩ => ⟨S4096x4096, .f32⟩
  | .hbm, ⟨73, _⟩ => ⟨S4096x2048, .f32⟩
  | .hbm, ⟨74, _⟩ => ⟨S4096x2048, .f32⟩
  | .hbm, ⟨75, _⟩ => ⟨S4096x2048, .f32⟩
  | .hbm, ⟨76, _⟩ => ⟨S_, .f32⟩
  | .hbm, ⟨77, _⟩ => ⟨S4096, .f32⟩
  | .hbm, ⟨78, _⟩ => ⟨S4096x1, .f32⟩
  | .hbm, ⟨79, _⟩ => ⟨S_, .f32⟩
  | .hbm, ⟨80, _⟩ => ⟨S4096x1, .f32⟩
  | .hbm, ⟨81, _⟩ => ⟨S4096x1, .f32⟩
  | .hbm, ⟨82, _⟩ => ⟨S4096x2048, .f32⟩
  | .hbm, ⟨83, _⟩ => ⟨S4096x2048, .f32⟩
  | .hbm, ⟨84, _⟩ => ⟨S4096x2048, .f32⟩
  | .hbm, ⟨85, _⟩ => ⟨S_, .f32⟩
  | .hbm, ⟨86, _⟩ => ⟨S4096, .f32⟩
  | .hbm, ⟨87, _⟩ => ⟨S4096x1, .f32⟩
  | .hbm, ⟨88, _⟩ => ⟨S_, .f32⟩
  | .hbm, ⟨89, _⟩ => ⟨S4096x1, .f32⟩
  | .hbm, ⟨90, _⟩ => ⟨S4096x1, .f32⟩
  | .hbm, ⟨91, _⟩ => ⟨S4096x2048, .f32⟩
  | .hbm, ⟨92, _⟩ => ⟨S4096x2048, .f32⟩
  | .hbm, ⟨93, _⟩ => ⟨S_, .f32⟩
  | .hbm, ⟨94, _⟩ => ⟨S4096x1, .f32⟩
  | .hbm, ⟨95, _⟩ => ⟨S4096x1, .f32⟩
  | .hbm, ⟨96, _⟩ => ⟨S4096x1, .f32⟩
  | .hbm, ⟨97, _⟩ => ⟨S4096x2048, .f32⟩
  | .hbm, ⟨98, _⟩ => ⟨S4096x2048, .f32⟩
  | .hbm, ⟨99, _⟩ => ⟨S1x2048, .f32⟩
  | .hbm, ⟨100, _⟩ => ⟨S4096x2048, .f32⟩
  | .hbm, ⟨101, _⟩ => ⟨S4096x2048, .f32⟩
  | .hbm, ⟨102, _⟩ => ⟨S1x2048, .f32⟩
  | .hbm, ⟨103, _⟩ => ⟨S4096x2048, .f32⟩
  | .hbm, ⟨104, _⟩ => ⟨S4096x2048, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_call0_v0 : Ref sig .tc := ⟨.hbm, 19, rfl⟩
abbrev main_call0_v1 : Ref sig .tc := ⟨.hbm, 20, rfl⟩
abbrev main_call0_cst : Ref sig .tc := ⟨.hbm, 21, rfl⟩
abbrev main_call0_v2 : Ref sig .tc := ⟨.hbm, 22, rfl⟩
abbrev main_call0_v3 : Ref sig .tc := ⟨.hbm, 23, rfl⟩
abbrev main_call0_cst_0 : Ref sig .tc := ⟨.hbm, 24, rfl⟩
abbrev main_call0_v4 : Ref sig .tc := ⟨.hbm, 25, rfl⟩
abbrev main_call0_v5 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_call1_cst : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_v5 : Ref sig .tc := ⟨.hbm, 44, rfl⟩
abbrev main_call1_v6 : Ref sig .tc := ⟨.hbm, 45, rfl⟩
abbrev main_call1_v7 : Ref sig .tc := ⟨.hbm, 46, rfl⟩
abbrev main_call1_v8 : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_v18 : Ref sig .tc := ⟨.hbm, 51, rfl⟩
abbrev main_v19 : Ref sig .tc := ⟨.hbm, 52, rfl⟩
abbrev main_cst : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_call2_v0 : Ref sig .tc := ⟨.hbm, 63, rfl⟩
abbrev main_call2_v1 : Ref sig .tc := ⟨.hbm, 64, rfl⟩
abbrev main_call2_cst : Ref sig .tc := ⟨.hbm, 65, rfl⟩
abbrev main_call2_v2 : Ref sig .tc := ⟨.hbm, 66, rfl⟩
abbrev main_call2_v3 : Ref sig .tc := ⟨.hbm, 67, rfl⟩
abbrev main_call2_cst_0 : Ref sig .tc := ⟨.hbm, 68, rfl⟩
abbrev main_call2_v4 : Ref sig .tc := ⟨.hbm, 69, rfl⟩
abbrev main_call2_v5 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_cst_0 : Ref sig .tc := ⟨.hbm, 76, rfl⟩
abbrev main_v34 : Ref sig .tc := ⟨.hbm, 77, rfl⟩
abbrev main_v35 : Ref sig .tc := ⟨.hbm, 78, rfl⟩
abbrev main_cst_1 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_cst_2 : Ref sig .tc := ⟨.hbm, 85, rfl⟩
abbrev main_v41 : Ref sig .tc := ⟨.hbm, 86, rfl⟩
abbrev main_v42 : Ref sig .tc := ⟨.hbm, 87, rfl⟩
abbrev main_cst_3 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_cst_4 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩

abbrev nD : Nat := 1
abbrev τ : Topo := Topo.v7x

variable {F : FTy → Type} [FloatOps F]

class Facts₀ : Prop where
  transposes_S8192x1024_S1024x8192_1_0 : S8192x1024.Transposes [1, 0] S1024x8192
  slices_S4096x8192_S4096x4096_0_0 : S4096x8192.Slices ![0, 0] S4096x4096
  slices_S4096x8192_S4096x4096_0_4096 : S4096x8192.Slices ![0, 4096] S4096x4096
  transposes_S4096x2048_S2048x4096_1_0 : S4096x2048.Transposes [1, 0] S2048x4096
  bcast_S_S4096x4096 : S_.BroadcastsInDim S4096x4096 (![] : Fin 0 → Fin S4096x4096.rank)
  transposes_S160x4096_S4096x160_1_0 : S160x4096.Transposes [1, 0] S4096x160
  slices_S4096x160_S4096x128_0_0 : S4096x160.Slices ![0, 0] S4096x128
  slices_S4096x160_S4096x16_0_128 : S4096x160.Slices ![0, 128] S4096x16
  slices_S4096x160_S4096x16_0_144 : S4096x160.Slices ![0, 144] S4096x16
  transposes_S4096x128_S128x4096_1_0 : S4096x128.Transposes [1, 0] S128x4096
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  reducesTo_S4096x16_S4096_d1 : S4096x16.ReducesTo [1] S4096
  h_S_ : 0 < S_.numel
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  transposes_S2048x4096_S4096x2048_1_0 : S2048x4096.Transposes [1, 0] S4096x2048
  reducesTo_S4096x2048_S4096_d1 : S4096x2048.ReducesTo [1] S4096
  bcast_S_S4096x1 : S_.BroadcastsInDim S4096x1 (![] : Fin 0 → Fin S4096x1.rank)
  bcast_S4096x1_S4096x2048_0_1 : S4096x1.BroadcastsInDim S4096x2048 (![0, 1] : Fin 2 → Fin S4096x2048.rank)
  bcast_S2048_S1x2048_1 : S2048.BroadcastsInDim S1x2048 (![1] : Fin 1 → Fin S1x2048.rank)
  bcast_S1x2048_S4096x2048_0_1 : S1x2048.BroadcastsInDim S4096x2048 (![0, 1] : Fin 2 → Fin S4096x2048.rank)
  dot_S4096x1024_S1024x8192_S4096x8192_1_0_0_1_n_n_wf : DotDims.WF S4096x1024 S1024x8192 S4096x8192 [1] [0] [0] [1] [] []
  dot_S4096x2048_S2048x4096_S4096x4096_1_0_0_1_n_n_wf : DotDims.WF S4096x2048 S2048x4096 S4096x4096 [1] [0] [0] [1] [] []
  dot_S4096x4096_S4096x160_S4096x160_1_0_0_1_n_n_wf : DotDims.WF S4096x4096 S4096x160 S4096x160 [1] [0] [0] [1] [] []
  dot_S4096x128_S128x4096_S4096x4096_1_0_0_1_n_n_wf : DotDims.WF S4096x128 S128x4096 S4096x4096 [1] [0] [0] [1] [] []
  dot_S4096x4096_S4096x2048_S4096x2048_1_0_0_1_n_n_wf : DotDims.WF S4096x4096 S4096x2048 S4096x2048 [1] [0] [0] [1] [] []

variable [Facts₀]

def dot_S4096x1024_S1024x8192_S4096x8192_1_0_0_1_n_n : DotDims S4096x1024 S1024x8192 S4096x8192 where
  lhsContracting := [1]
  rhsContracting := [0]
  lhsNonContracting := [0]
  rhsNonContracting := [1]
  lhsBatch := []
  rhsBatch := []
  wf := dot_S4096x1024_S1024x8192_S4096x8192_1_0_0_1_n_n_wf
def dot_S4096x2048_S2048x4096_S4096x4096_1_0_0_1_n_n : DotDims S4096x2048 S2048x4096 S4096x4096 where
  lhsContracting := [1]
  rhsContracting := [0]
  lhsNonContracting := [0]
  rhsNonContracting := [1]
  lhsBatch := []
  rhsBatch := []
  wf := dot_S4096x2048_S2048x4096_S4096x4096_1_0_0_1_n_n_wf
def dot_S4096x4096_S4096x160_S4096x160_1_0_0_1_n_n : DotDims S4096x4096 S4096x160 S4096x160 where
  lhsContracting := [1]
  rhsContracting := [0]
  lhsNonContracting := [0]
  rhsNonContracting := [1]
  lhsBatch := []
  rhsBatch := []
  wf := dot_S4096x4096_S4096x160_S4096x160_1_0_0_1_n_n_wf
def dot_S4096x128_S128x4096_S4096x4096_1_0_0_1_n_n : DotDims S4096x128 S128x4096 S4096x4096 where
  lhsContracting := [1]
  rhsContracting := [0]
  lhsNonContracting := [0]
  rhsNonContracting := [1]
  lhsBatch := []
  rhsBatch := []
  wf := dot_S4096x128_S128x4096_S4096x4096_1_0_0_1_n_n_wf
def dot_S4096x4096_S4096x2048_S4096x2048_1_0_0_1_n_n : DotDims S4096x4096 S4096x2048 S4096x2048 where
  lhsContracting := [1]
  rhsContracting := [0]
  lhsNonContracting := [0]
  rhsNonContracting := [1]
  lhsBatch := []
  rhsBatch := []
  wf := dot_S4096x4096_S4096x2048_S4096x2048_1_0_0_1_n_n_wf

class Facts : Prop extends Facts₀ where

variable [Facts]
-- ==== Proof.RowSpec.lean ====
/-
  One batch row of the gated state-space step, as a function on the extended reals.

  A row of the input `xr` (1024 entries) and a row of the previous hidden state `hr` (2048 entries) are mixed
  by two matrix products and the SiLU; the mixed row is projected three ways (a low-rank step-size code, and two
  16-entry state vectors whose inner product couples them); the step size is the softplus of a second projection
  plus a bias; the product of step size, mixed row and coupling, plus a skip term, is gated by the SiLU of a third
  projection of the input; a last projection plus the previous hidden row is layer-normalised.
  Every matrix product of either program is ONE function here: `proj v W o = ∑ k, v k * W o k`, a row `v` against
  row `o` of a matrix read row-wise. No step uses distributivity or cancellation, so nothing here asks its
  arguments to be finite.
-/
import Idealize.ShloMosaic.PureOps.Ideal
import Idealize.ShloMosaic.PureOps.Ideal.Laws
import Idealize.ShloMosaic.Lib.ValueIdx

noncomputable section

namespace Cert.GatedStep

open Idealize.ShloMosaic

/-! ## Scalars -/

/-- The f32 word of `1.0` denotes the extended real `1`. -/
theorem one_word : Ideal.ofBits .f32 0x3F800000#32 = 1 := by
  simp [Ideal.ofBits, Ideal.ieee, -EReal.coe_mul]; norm_num

/-- SiLU: `a · σ(a)`, with `σ` the logistic function `1 / (1 + e^(-a))` (`0` at `-∞`, `1` at `+∞`). -/
def silu (a : EReal) : EReal := a * Ideal.logistic a

/-- The logistic function spelt out with the word of `1.0` for its two ones, as a division, is the same
    function: the word denotes `1`, and `Ideal.logistic` is that quotient by definition. -/
theorem silu_spelt (a : EReal) :
    a * Ideal.div (Ideal.ofBits .f32 0x3F800000#32) (Ideal.ofBits .f32 0x3F800000#32 + Ideal.exp (-a)) = silu a := by
  rw [one_word]; rfl

/-- Softplus, `log (1 + e^a)`, in the overflow-free spelling `max a 0 + log1p (e^(-|a|))`, `|a| = max a (-a)`. -/
def softplus (a : EReal) : EReal := max a 0 + Ideal.log1p (Ideal.exp (-(max a (-a))))

/-- No extended real differs from itself: the not-equal comparison of a value with itself is the bit `0`,
    ordered or unordered (there is no NaN among the extended reals). -/
theorem cmp_one_self (a : EReal) : Ideal.cmp .one a a = 0#1 := by simp [Ideal.cmp]
theorem cmp_une_self (a : EReal) : Ideal.cmp .une a a = 0#1 := by simp [Ideal.cmp]

/-- Both programs guard softplus by "is `a - 0` different from itself?" and subtract and add a zero on the way;
    the guard never fires, `a - 0 = a`, and `0 - t = -t`. Here with the negation spelt `0 - t`. -/
theorem softplus_guard_sub (b : BitVec 1) (hb : b = 0#1) (a : EReal) :
    Scalar.select b (a + 0) (max a 0 + Ideal.log1p (Ideal.exp (0 - max (a - 0) (-(a - 0))))) = softplus a := by
  subst hb
  rw [ValueIdx.select_zero, sub_zero, zero_sub]; rfl

/-- The same with the negation spelt `-t`. -/
theorem softplus_guard_neg (b : BitVec 1) (hb : b = 0#1) (a : EReal) :
    Scalar.select b (a + 0) (max a 0 + Ideal.log1p (Ideal.exp (-(max (a - 0) (-(a - 0)))))) = softplus a := by
  subst hb
  rw [ValueIdx.select_zero, sub_zero]; rfl

/-! ## Reading arrays by rows -/

/-- Row `p` of an `a×b` array. -/
def row {a b : Nat} (A : (⟨2, ![a, b]⟩ : Shape).Idx → EReal) (p : Fin a) : Fin b → EReal :=
  fun k => A (ValueIdx.ix2 p k)

/-- An `a×b` array holding a `b×a` matrix's transpose, read as that matrix row-wise: its row `o` is the
    array's column `o`. -/
def colT {a b : Nat} (A : (⟨2, ![a, b]⟩ : Shape).Idx → EReal) : Fin b → Fin a → EReal :=
  fun o k => A (ValueIdx.ix2 k o)

/-- The one row of a `1×b` array. -/
def row0 {b : Nat} (A : (⟨2, ![1, b]⟩ : Shape).Idx → EReal) : Fin b → EReal :=
  fun k => A (ValueIdx.ix2 (0 : Fin 1) k)

/-! ## A row -/

/-- A row against row `o` of a matrix read row-wise: the one matrix product of this file. -/
def proj {n m : Nat} (v : Fin n → EReal) (W : Fin m → Fin n → EReal) (o : Fin m) : EReal := ∑ k, v k * W o k

/-- The mixed row: SiLU of the input's projection plus the previous hidden row's. -/
def mixed (xr : Fin 1024 → EReal) (hr : Fin 2048 → EReal) (Wx : Fin 4096 → Fin 1024 → EReal)
    (Ws : Fin 4096 → Fin 2048 → EReal) : Fin 4096 → EReal :=
  fun d => silu (proj xr Wx d + proj hr Ws d)

/-- The step size: softplus of the low-rank code's projection plus a bias. -/
def stepSize (code : Fin 128 → EReal) (Wd : Fin 4096 → Fin 128 → EReal) (bd : Fin 4096 → EReal) : Fin 4096 → EReal :=
  fun d => softplus (proj code Wd d + bd d)

/-- The coupling: the inner product of the two 16-entry state vectors. -/
def coupling (bv cv : Fin 16 → EReal) : EReal := ∑ n, bv n * cv n

/-- The gated row: step size × mixed row × coupling, plus the skip term, times the SiLU of the gate. -/
def gated (xb dtv : Fin 4096 → EReal) (bc : EReal) (Dv zv : Fin 4096 → EReal) : Fin 4096 → EReal :=
  fun d => (dtv d * xb d * bc + Dv d * xb d) * silu (zv d)

/-- The updated hidden row before normalisation: the gated row's projection plus the previous hidden row. -/
def updated (yv : Fin 4096 → EReal) (Wo : Fin 2048 → Fin 4096 → EReal) (hr : Fin 2048 → EReal) : Fin 2048 → EReal :=
  fun j => proj yv Wo j + hr j

/-- The mean of a 2048-entry row: its sum divided by the f32 word of `2048.0`. -/
def mean (v : Fin 2048 → EReal) : EReal := Ideal.div (∑ j, v j) (Ideal.ofBits .f32 0x45000000#32)

/-- The centred row. -/
def centred (v : Fin 2048 → EReal) : Fin 2048 → EReal := fun j => v j - mean v

/-- Layer normalisation: the centred row times the reciprocal root of its mean square plus the f32 word of
    `1e-5`, scaled and shifted entry by entry. -/
def normed (v ga be : Fin 2048 → EReal) : Fin 2048 → EReal :=
  fun j => centred v j * Ideal.rsqrt (mean (fun j => centred v j * centred v j) + Ideal.ofBits .f32 0x3727C5AC#32) * ga j + be j

/-- One output row from one input row, one previous hidden row and the weights, each weight matrix read row-wise:
    `Wx`, `Wz` the two halves of the input projection, `Ws` the state projection, `Wl`, `Wb`, `Wc` the three
    bands of the mixed row's projection, `Wd`, `bd` the step-size projection and bias, `Dv` the skip weights, `Wo`
    the output projection, `ga`, `be` the normalisation's scale and shift. -/
def rowOut (xr : Fin 1024 → EReal) (hr : Fin 2048 → EReal) (Wx Wz : Fin 4096 → Fin 1024 → EReal)
    (Ws : Fin 4096 → Fin 2048 → EReal) (Wl : Fin 128 → Fin 4096 → EReal) (Wb Wc : Fin 16 → Fin 4096 → EReal)
    (Wd : Fin 4096 → Fin 128 → EReal) (bd Dv : Fin 4096 → EReal) (Wo : Fin 2048 → Fin 4096 → EReal)
    (ga be : Fin 2048 → EReal) : Fin 2048 → EReal :=
  normed (updated (gated (mixed xr hr Wx Ws) (stepSize (proj (mixed xr hr Wx Ws) Wl) Wd bd)
    (coupling (proj (mixed xr hr Wx Ws) Wb) (proj (mixed xr hr Wx Ws) Wc)) Dv (proj xr Wz)) Wo hr) ga be

end Cert.GatedStep

end
-- ==== Proof.ReadAt.lean ====
/-
  Matrix products, lane sums and the keep-dimension layouts read at an index, at the ideal values.

  Every statement is over literal rank-2 and rank-1 shapes with coordinates built by `ix1` / `ix2`, so that each
  coordinate has a plain `Fin n` type:
  * an `M×K` by `K×N` product accumulated into the zero splat, at `(p, q)`, is `∑ k, L (p, k) * R (k, q)`;
  * a sum over the second axis of an `a×b` array, at `p`, is `∑ k, src (p, k)`;
  * a length-`a` vector laid out as an `a×1` column reads, at `(p, u)`, the vector at `p`;
  * an `a×1` column broadcast along rows to `a×b` reads, at `(p, q)`, the column at `(p, 0)`.
-/
import Idealize.ShloMosaic.PureOps.Ideal.Laws
import Idealize.ShloMosaic.Lib.ValueIdx
import Idealize.ShloMosaic.Lib.ValueLayout
import Idealize.ShloMosaic.Lib.Pipeline.Value

noncomputable section

namespace Cert.GatedStep

open Idealize.ShloMosaic Idealize.ShloMosaic.ValueIdx

/-! ## A matrix product -/

/-- In the plain product the left operand's row coordinate is the output's. -/
theorem plain_lhs_row (M K N : Nat) (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton_self _)]
  rfl

/-- … and the right operand's column coordinate is the output's. -/
theorem plain_rhs_col (M K N : Nat) (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton_self _)]
  rfl

/-- The plain `M×K` by `K×N` product into a zero accumulator, read at `(p, q)`: the sum over the one
    contracted coordinate `k` of the left operand at `(p, k)` times the right at `(k, q)`. Stated for any
    dimension record equal to the plain one, so that it applies to a record named elsewhere. -/
theorem matmul_plain_at {M K N : Nat} {φ₁ φ₂ : FTy} (D : DotDims ⟨2, ![M, K]⟩ ⟨2, ![K, N]⟩ ⟨2, ![M, N]⟩)
    (hD : D = DotDims.plain M K N) (L : FVec Ideal ⟨2, ![M, K]⟩ φ₁) (Rr : FVec Ideal ⟨2, ![K, N]⟩ φ₂)
    (p : Fin M) (q : Fin N) :
    matmul D none L Rr (constant (F := Ideal) ⟨2, ![M, N]⟩ .f32 0x00000000#32) (ix2 p q)
      = ∑ k : Fin K, L (ix2 p k) * Rr (ix2 k q) := by
  subst hD
  show FloatOps.matmul (DotDims.plain M K N) none L Rr (constant (F := Ideal) ⟨2, ![M, N]⟩ .f32 0x00000000#32) (ix2 p q) = _
  rw [Ideal.matmul_constant_zero_apply,
    ← Equiv.sum_comp (ValueIdx.contrEquiv1 (DotDims.plain M K N) K rfl rfl).symm]
  refine Finset.sum_congr rfl fun k _ => ?_
  have hk := ValueIdx.contrEquiv1_symm_val (DotDims.plain M K N) K rfl rfl k
  have el : (DotDims.plain M K N).lhsIdx (ix2 p q) ((ValueIdx.contrEquiv1 (DotDims.plain M K N) K rfl rfl).symm k)
      = ix2 p k := funext fun a => Fin.ext (by
    match a with
    | ⟨0, _⟩ => exact plain_lhs_row M K N _ _
    | ⟨1, _⟩ => exact ((DotDims.plain M K N).lhsIdx_val_of_single rfl _ _).trans hk)
  have er : (DotDims.plain M K N).rhsIdx (ix2 p q) ((ValueIdx.contrEquiv1 (DotDims.plain M K N) K rfl rfl).symm k)
      = ix2 k q := funext fun a => Fin.ext (by
    match a with
    | ⟨0, _⟩ => exact ((DotDims.plain M K N).rhsIdx_val_of_single rfl _ _).trans hk
    | ⟨1, _⟩ => exact plain_rhs_col M K N _ _)
  rw [el, er]

/-! ## A lane sum -/

/-- The sum over the second axis of an `a×b` array into a length-`a` vector, read at `p`: the sum over `k` of
    the array at `(p, k)`. The three proof arguments are whatever the term at hand carries. -/
theorem laneSum_at {a b : Nat} (src : FVec Ideal ⟨2, ![a, b]⟩ .f32) (acc : BitVec 32)
    (h : (⟨2, ![a, b]⟩ : Shape).Reduces [1] ⟨1, ![a]⟩) (hφ : FKind.Formats .f32)
    (hacc : acc = FKind.add.neutral .f32 hφ) (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun d => Fin.ext (by
      match d with
      | ⟨0, _⟩ => rfl
      | ⟨1, _⟩ => rfl)))

/-! ## Keep-dimension layouts -/

/-- A length-`a` vector cast to an `a×1` column reads, at `(p, u)`, the vector at `p`. -/
theorem shapeCast_a_a1_apply {α : Type} {a : Nat} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `a×1` column broadcast along rows to `a×b` reads, at `(p, q)`, the column's entry of row `p`. -/
theorem broadcastTo_a1_ab_apply {α : Type} {a b : Nat} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Cert.GatedStep

end
-- ==== Proof.KernelRow.lean ====
/-
  One grid point of the kernel, row by row: the pure terms the body stores (the printed body's payloads), read at
  row `p` of the 64-row block, are the stages of `Cert.GatedStep` of that row of the two moving blocks and of the
  resident weight blocks read as the transposes they are.

  A payload is a tree of pointwise operations over a few operations that are not pointwise: six matrix products into
  a zero accumulator, one sum over the 16 state entries kept as a column and broadcast along the row, and two
  one-row arrays (the step-size bias, the skip weights) broadcast down the block. Each of the latter is named here
  with its reading at an index; a payload then IS the composition of the named pieces (by unfolding), and its row
  follows by rewriting the pieces. A change of float format is the identity on the extended reals and a shape cast
  to the same shape is the identity, so neither leaves a trace.
-/
import proofs.«100958_j43224550867081_2_alg».proof.Proof.Gen.KernelIdeal.Skeleton
import proofs.«100958_j43224550867081_2_alg».proof.Proof.RowSpec
import proofs.«100958_j43224550867081_2_alg».proof.Proof.ReadAt

noncomputable section

namespace Cert.KernelIdeal.RowValue

open Cert.KernelIdeal Cert.KernelIdeal.Gen Cert.GatedStep
open Idealize.ShloMosaic Idealize.ShloMosaic.ValueIdx

/-! ## A product's row -/

/-- Row `p` of a plain product into the zero accumulator is row `p` of the left operand projected through the
    right operand read as a transpose. -/
theorem mm_row {M K N : Nat} {φ₁ φ₂ : FTy} (D : DotDims ⟨2, ![M, K]⟩ ⟨2, ![K, N]⟩ ⟨2, ![M, N]⟩)
    (hD : D = DotDims.plain M K N) (L : FVec Ideal ⟨2, ![M, K]⟩ φ₁) (Rr : FVec Ideal ⟨2, ![K, N]⟩ φ₂) (p : Fin M) :
    row (matmul D none L Rr (constant (F := Ideal) ⟨2, ![M, N]⟩ .f32 0x00000000#32)) p = proj (row L p) (colT Rr) :=
  funext fun q => matmul_plain_at D hD L Rr p q

/-! ## The mixed row, the gate, and the mixed row's three projections -/

/-- The mixed block's row: SiLU of the input row's projection plus the hidden row's. -/
theorem pay3_row (v0 : FVec Ideal S64x1024 .f32) (v2 : FVec Ideal S64x2048 .f32) (v4 : FVec Ideal S1024x4096 .bf16)
    (v7 : FVec Ideal S2048x4096 .bf16) (p : Fin 64) :
    row (k0_pay3 (F := Ideal) v0 v2 v4 v7) p = mixed (row v0 p) (row v2 p) (colT v4) (colT v7) := by
  have e1 : row (matmul dot_S64x1024_S1024x4096_S64x4096_1_0_0_1_n_n none (truncf .bf16 v0 bitsLt_bf16_f32)
      (shapeCast S1024x4096 v4 shapeCasts_S1024x4096_S1024x4096) (constant (F := Ideal) S64x4096 .f32 0x00000000#32)) p
      = proj (row v0 p) (colT v4) :=
    (mm_row _ rfl _ _ p).trans (by rw [shapeCast_self]; rfl)
  have e2 : row (matmul dot_S64x2048_S2048x4096_S64x4096_1_0_0_1_n_n none (truncf .bf16 v2 bitsLt_bf16_f32)
      (shapeCast S2048x4096 v7 shapeCasts_S2048x4096_S2048x4096) (constant (F := Ideal) S64x4096 .f32 0x00000000#32)) p
      = proj (row v2 p) (colT v7) :=
    (mm_row _ rfl _ _ p).trans (by rw [shapeCast_self]; rfl)
  funext d
  show _ = silu (proj (row v0 p) (colT v4) d + proj (row v2 p) (colT v7) d)
  rw [← e1, ← e2]
  rfl

/-- The gate block's row: the input row's projection through the second half of the input weights. -/
theorem pay4_row (v0 : FVec Ideal S64x1024 .f32) (v13 : FVec Ideal S1024x4096 .bf16) (p : Fin 64) :
    row (k0_pay4 (F := Ideal) v0 v13) p = proj (row v0 p) (colT v13) :=
  (mm_row dot_S64x1024_S1024x4096_S64x4096_1_0_0_1_n_n rfl (truncf .bf16 v0 bitsLt_bf16_f32)
    (shapeCast S1024x4096 v13 shapeCasts_S1024x4096_S1024x4096) p).trans (by rw [shapeCast_self]; rfl)

/-- A 16-entry state vector's row: the mixed row's projection (first state band). -/
theorem pay6_row (v0 : FVec Ideal S64x1024 .f32) (v2 : FVec Ideal S64x2048 .f32) (v4 : FVec Ideal S1024x4096 .bf16)
    (v7 : FVec Ideal S2048x4096 .bf16) (v20 : FVec Ideal S4096x16 .bf16) (p : Fin 64) :
    row (k0_pay6 (F := Ideal) v0 v2 v4 v7 v20) p = proj (mixed (row v0 p) (row v2 p) (colT v4) (colT v7)) (colT v20) :=
  (mm_row dot_S64x4096_S4096x16_S64x16_1_0_0_1_n_n rfl (truncf .bf16 (k0_pay3 (F := Ideal) v0 v2 v4 v7) bitsLt_bf16_f32)
    (shapeCast S4096x16 v20 shapeCasts_S4096x16_S4096x16) p).trans (by
      rw [shapeCast_self]
      show proj (row (k0_pay3 (F := Ideal) v0 v2 v4 v7) p) (colT v20) = _
      rw [pay3_row])

/-- The second state band, likewise. -/
theorem pay7_row (v0 : FVec Ideal S64x1024 .f32) (v2 : FVec Ideal S64x2048 .f32) (v4 : FVec Ideal S1024x4096 .bf16)
    (v7 : FVec Ideal S2048x4096 .bf16) (v23 : FVec Ideal S4096x16 .bf16) (p : Fin 64) :
    row (k0_pay7 (F := Ideal) v0 v2 v4 v7 v23) p = proj (mixed (row v0 p) (row v2 p) (colT v4) (colT v7)) (colT v23) :=
  (mm_row dot_S64x4096_S4096x16_S64x16_1_0_0_1_n_n rfl (truncf .bf16 (k0_pay3 (F := Ideal) v0 v2 v4 v7) bitsLt_bf16_f32)
    (shapeCast S4096x16 v23 shapeCasts_S4096x16_S4096x16) p).trans (by
      rw [shapeCast_self]
      show proj (row (k0_pay3 (F := Ideal) v0 v2 v4 v7) p) (colT v23) = _
      rw [pay3_row])

/-- The step size before its bias: the mixed row's low-rank code, projected again. -/
theorem pay8_row (v0 : FVec Ideal S64x1024 .f32) (v2 : FVec Ideal S64x2048 .f32) (v4 : FVec Ideal S1024x4096 .bf16)
    (v7 : FVec Ideal S2048x4096 .bf16) (v17 : FVec Ideal S4096x128 .bf16) (v27 : FVec Ideal S128x4096 .bf16) (p : Fin 64) :
    row (k0_pay8 (F := Ideal) v0 v2 v4 v7 v17 v27) p
      = proj (proj (mixed (row v0 p) (row v2 p) (colT v4) (colT v7)) (colT v17)) (colT v27) := by
  have e1 : row (matmul dot_S64x4096_S4096x128_S64x128_1_0_0_1_n_n none (truncf .bf16 (k0_pay3 (F := Ideal) v0 v2 v4 v7) bitsLt_bf16_f32)
      v17 (constant (F := Ideal) S64x128 .f32 0x00000000#32)) p
      = proj (mixed (row v0 p) (row v2 p) (colT v4) (colT v7)) (colT v17) :=
    (mm_row _ rfl _ _ p).trans (by
      show proj (row (k0_pay3 (F := Ideal) v0 v2 v4 v7) p) (colT v17) = _
      rw [pay3_row])
  refine (mm_row dot_S64x128_S128x4096_S64x4096_1_0_0_1_n_n rfl (truncf .bf16
    (matmul dot_S64x4096_S4096x128_S64x128_1_0_0_1_n_n none (truncf .bf16 (k0_pay3 (F := Ideal) v0 v2 v4 v7) bitsLt_bf16_f32)
      (shapeCast S4096x128 v17 shapeCasts_S4096x128_S4096x128) (constant (F := Ideal) S64x128 .f32 0x00000000#32)) bitsLt_bf16_f32)
    (shapeCast S128x4096 v27 shapeCasts_S128x4096_S128x4096) p).trans ?_
  rw [shapeCast_self, shapeCast_self]
  show proj (row (matmul dot_S64x4096_S4096x128_S64x128_1_0_0_1_n_n none (truncf .bf16 (k0_pay3 (F := Ideal) v0 v2 v4 v7) bitsLt_bf16_f32)
      v17 (constant (F := Ideal) S64x128 .f32 0x00000000#32)) p) (colT v27) = _
  rw [e1]

/-! ## The pieces of the gated row that are not pointwise -/

/-- The step size on a block: the one bias row added to every row, then softplus in the programs' spelling
    (guarded by "is `a - 0` different from itself", with the negation written `0 - t`). -/
def blkStep (v29 : FVec Ideal S64x4096 .f32) (v31 : FVec Ideal S1x4096 .f32) : FVec Ideal S64x4096 .f32 :=
  select (cmpf .one (subf (addf v29 (broadcastTo S64x4096 v31 broadcasts_S1x4096_S64x4096)) (broadcast S64x4096 (Scalar.ofBits .f32 0x00000000#32)))
      (subf (addf v29 (broadcastTo S64x4096 v31 broadcasts_S1x4096_S64x4096)) (broadcast S64x4096 (Scalar.ofBits .f32 0x00000000#32))))
    (addf (addf v29 (broadcastTo S64x4096 v31 broadcasts_S1x4096_S64x4096)) (broadcast S64x4096 (Scalar.ofBits .f32 0x00000000#32)))
    (addf (maximumf (addf v29 (broadcastTo S64x4096 v31 broadcasts_S1x4096_S64x4096)) (broadcast S64x4096 (Scalar.ofBits .f32 0x00000000#32)))
      (log1p (exp (subf (broadcast S64x4096 (Scalar.ofBits .f32 0x00000000#32))
        (absf (subf (addf v29 (broadcastTo S64x4096 v31 broadcasts_S1x4096_S64x4096)) (broadcast S64x4096 (Scalar.ofBits .f32 0x00000000#32))))))))

/-- At `(p, d)` it is the softplus of the block's entry plus the bias row's entry `d`. -/
theorem blkStep_at (v29 : FVec Ideal S64x4096 .f32) (v31 : FVec Ideal S1x4096 .f32) (p : Fin 64) (d : Fin 4096) :
    blkStep v29 v31 (ix2 p d) = softplus (v29 (ix2 p d) + v31 (ix2 (0 : Fin 1) d)) := by
  have hb : broadcastTo S64x4096 v31 broadcasts_S1x4096_S64x4096 (ix2 p d) = v31 (ix2 (0 : Fin 1) d) :=
    broadcastTo_1b_ab_apply v31 _ p d
  show Scalar.select (Ideal.cmp .one
        (v29 (ix2 p d) + broadcastTo S64x4096 v31 broadcasts_S1x4096_S64x4096 (ix2 p d) - Ideal.ofBits .f32 0x00000000#32)
        (v29 (ix2 p d) + broadcastTo S64x4096 v31 broadcasts_S1x4096_S64x4096 (ix2 p d) - Ideal.ofBits .f32 0x00000000#32))
      (v29 (ix2 p d) + broadcastTo S64x4096 v31 broadcasts_S1x4096_S64x4096 (ix2 p d) + Ideal.ofBits .f32 0x00000000#32)
      (max (v29 (ix2 p d) + broadcastTo S64x4096 v31 broadcasts_S1x4096_S64x4096 (ix2 p d)) (Ideal.ofBits .f32 0x00000000#32)
        + Ideal.log1p (Ideal.exp (Ideal.ofBits .f32 0x00000000#32
          - max (v29 (ix2 p d) + broadcastTo S64x4096 v31 broadcasts_S1x4096_S64x4096 (ix2 p d) - Ideal.ofBits .f32 0x00000000#32)
              (-(v29 (ix2 p d) + broadcastTo S64x4096 v31 broadcasts_S1x4096_S64x4096 (ix2 p d) - Ideal.ofBits .f32 0x00000000#32))))) = _
  rw [hb, Ideal.ofBits_zero_f32]
  exact softplus_guard_sub _ (cmp_one_self _) _

/-- The coupling on a block: the entrywise product of the two state blocks summed over its 16 columns, kept as a
    column and broadcast along each row. -/
def blkCoupling (v22 v25 : FVec Ideal S64x16 .f32) : FVec Ideal S64x4096 .f32 :=
  broadcastTo S64x4096 (shapeCast S64x1 (multiReduction .add [1] S64 (mulf v22 v25) 0x00000000#32 reduces_S64x16_S64 (.inl rfl) rfl)
    shapeCasts_S64_S64x1) broadcasts_S64x1_S64x4096

/-- At `(p, d)`, whatever `d`, it is the inner product of the two state rows `p`. -/
theorem blkCoupling_at (v22 v25 : FVec Ideal S64x16 .f32) (p : Fin 64) (d : Fin 4096) :
    blkCoupling v22 v25 (ix2 p d) = coupling (row v22 p) (row v25 p) :=
  (broadcastTo_a1_ab_apply _ broadcasts_S64x1_S64x4096 p d).trans
    ((shapeCast_a_a1_apply _ shapeCasts_S64_S64x1 p (0 : Fin 1)).trans
      (laneSum_at (mulf v22 v25) 0x00000000#32 reduces_S64x16_S64 (.inl rfl) rfl p))

/-- The skip weights on a block: their one row broadcast down the block. -/
def blkSkip (v54 : FVec Ideal S1x4096 .f32) : FVec Ideal S64x4096 .f32 :=
  broadcastTo S64x4096 (shapeCast S1x4096 v54 shapeCasts_S1x4096_S1x4096) broadcasts_S1x4096_S64x4096

theorem blkSkip_at (v54 : FVec Ideal S1x4096 .f32) (p : Fin 64) (d : Fin 4096) :
    blkSkip v54 (ix2 p d) = v54 (ix2 (0 : Fin 1) d) := by
  unfold blkSkip
  rw [shapeCast_self]
  exact broadcastTo_1b_ab_apply v54 _ p d

/-! ## The updated hidden row before normalisation -/

/-- The gated block from its pieces, as the body computes it. -/
def blkGated (v12 v15 : FVec Ideal S64x4096 .f32) (v22 v25 : FVec Ideal S64x16 .f32) (v29 : FVec Ideal S64x4096 .f32)
    (v31 v54 : FVec Ideal S1x4096 .f32) : FVec Ideal S64x4096 .f32 :=
  mulf (addf (mulf (mulf (blkStep v29 v31) v12) (blkCoupling v22 v25)) (mulf (blkSkip v54) v12)) (mulf v15 (logistic v15))

/-- Its row `p`: the gated row of the mixed row `v12`, the softplus of `v29` plus the bias, the coupling of the two
    state rows, the skip weights and the gate row `v15`. -/
theorem blkGated_row (v12 v15 : FVec Ideal S64x4096 .f32) (v22 v25 : FVec Ideal S64x16 .f32) (v29 : FVec Ideal S64x4096 .f32)
    (v31 v54 : FVec Ideal S1x4096 .f32) (p : Fin 64) :
    row (blkGated v12 v15 v22 v25 v29 v31 v54) p
      = gated (row v12 p) (fun d => softplus (row v29 p d + row0 v31 d)) (coupling (row v22 p) (row v25 p)) (row0 v54) (row v15 p) := by
  funext d
  show (blkStep v29 v31 (ix2 p d) * v12 (ix2 p d) * blkCoupling v22 v25 (ix2 p d) + blkSkip v54 (ix2 p d) * v12 (ix2 p d))
      * (v15 (ix2 p d) * Ideal.logistic (v15 (ix2 p d))) = _
  rw [blkStep_at, blkCoupling_at, blkSkip_at]
  rfl

/-- The body's pre-normalisation value IS the gated block's product with the output weights plus the hidden block. -/
theorem pay10_eq (v2 : FVec Ideal S64x2048 .f32) (v12 v15 : FVec Ideal S64x4096 .f32) (v22 v25 : FVec Ideal S64x16 .f32)
    (v29 : FVec Ideal S64x4096 .f32) (v31 v54 : FVec Ideal S1x4096 .f32) (v63 : FVec Ideal S4096x2048 .bf16) :
    k0_pay10 (F := Ideal) v2 v12 v15 v22 v25 v29 v31 v54 v63
      = addf (matmul dot_S64x4096_S4096x2048_S64x2048_1_0_0_1_n_n none (truncf .bf16 (blkGated v12 v15 v22 v25 v29 v31 v54) bitsLt_bf16_f32)
          (shapeCast S4096x2048 v63 shapeCasts_S4096x2048_S4096x2048) (constant (F := Ideal) S64x2048 .f32 0x00000000#32)) v2 := rfl

/-- Its row `p`: the gated row's projection through the output weights plus the hidden row. -/
theorem pay10_row (v2 : FVec Ideal S64x2048 .f32) (v12 v15 : FVec Ideal S64x4096 .f32) (v22 v25 : FVec Ideal S64x16 .f32)
    (v29 : FVec Ideal S64x4096 .f32) (v31 v54 : FVec Ideal S1x4096 .f32) (v63 : FVec Ideal S4096x2048 .bf16) (p : Fin 64) :
    row (k0_pay10 (F := Ideal) v2 v12 v15 v22 v25 v29 v31 v54 v63) p
      = updated (gated (row v12 p) (fun d => softplus (row v29 p d + row0 v31 d)) (coupling (row v22 p) (row v25 p)) (row0 v54) (row v15 p))
          (colT v63) (row v2 p) := by
  have e : row (matmul dot_S64x4096_S4096x2048_S64x2048_1_0_0_1_n_n none (truncf .bf16 (blkGated v12 v15 v22 v25 v29 v31 v54) bitsLt_bf16_f32)
      (shapeCast S4096x2048 v63 shapeCasts_S4096x2048_S4096x2048) (constant (F := Ideal) S64x2048 .f32 0x00000000#32)) p
      = proj (gated (row v12 p) (fun d => softplus (row v29 p d + row0 v31 d)) (coupling (row v22 p) (row v25 p)) (row0 v54) (row v15 p)) (colT v63) :=
    (mm_row _ rfl _ _ p).trans (by
      rw [shapeCast_self]
      show proj (row (blkGated v12 v15 v22 v25 v29 v31 v54) p) (colT v63) = _
      rw [blkGated_row])
  rw [pay10_eq]
  funext j
  show row (matmul dot_S64x4096_S4096x2048_S64x2048_1_0_0_1_n_n none (truncf .bf16 (blkGated v12 v15 v22 v25 v29 v31 v54) bitsLt_bf16_f32)
      (shapeCast S4096x2048 v63 shapeCasts_S4096x2048_S4096x2048) (constant (F := Ideal) S64x2048 .f32 0x00000000#32)) p j + row v2 p j = _
  rw [e]
  rfl

end Cert.KernelIdeal.RowValue

end
-- ==== Proof.KernelNorm.lean ====
/-
  The block a grid point leaves, entry by entry.

  The generated value leg states what a grid point stores as one function of the body's loads, with the
  normalisation already read index by index and the pre-normalisation value, its row sums and the row sums of its
  centred squares kept whole. Here those are read too. The mean is a row sum divided by the word of `2048.0`, kept as
  a column and broadcast back along the row; the centred block is the block minus that; the variance is the mean of the
  centred block's squares. At entry `(p, q)` of the block the result is `normed` of row `p` of the pre-normalisation
  value with the one scale row and the one shift row, at `q`; and with the rows of KernelRow it is `rowOut` of row `p`
  of the input block and of the hidden block, the resident weight blocks read as the transposes they are.
-/
import proofs.«100958_j43224550867081_2_alg».proof.Proof.Gen.KernelIdeal.Value
import proofs.«100958_j43224550867081_2_alg».proof.Proof.KernelRow

noncomputable section

namespace Cert.KernelIdeal.RowValue

open Cert.KernelIdeal Cert.KernelIdeal.Gen Cert.KernelIdeal.Value Cert.GatedStep
open Idealize.ShloMosaic Idealize.ShloMosaic.ValueIdx

/-! ## Where entry `(p, q)` of the block reads each value -/

theorem ix14_0_at (p : Fin 64) (q : Fin 2048) : ix14_0 (ix2 p q) = ix2 p q :=
  funext fun a => Fin.ext (by match a with | ⟨0, _⟩ => rfl | ⟨1, _⟩ => rfl)
theorem ix14_1_at (p : Fin 64) (q : Fin 2048) : ix14_1 (ix2 p q) = ix1 p :=
  funext fun a => Fin.ext (by match a with | ⟨0, _⟩ => rfl)
theorem ix14_2_at (p : Fin 64) (q : Fin 2048) : ix14_2 (ix2 p q) = ix1 p :=
  funext fun a => Fin.ext (by match a with | ⟨0, _⟩ => rfl)
theorem ix14_3_at (p : Fin 64) (q : Fin 2048) : ix14_3 (ix2 p q) = ix2 (0 : Fin 1) q :=
  funext fun a => Fin.ext (by match a with | ⟨0, _⟩ => rfl | ⟨1, _⟩ => rfl)
theorem ix14_4_at (p : Fin 64) (q : Fin 2048) : ix14_4 (ix2 p q) = ix2 (0 : Fin 1) q :=
  funext fun a => Fin.ext (by match a with | ⟨0, _⟩ => rfl | ⟨1, _⟩ => rfl)

/-! ## Row means and the centred block -/

/-- A block's row sums. -/
def blkRowSum (H : FVec Ideal S64x2048 .f32) : FVec Ideal S64 .f32 :=
  multiReduction .add [1] S64 H 0x00000000#32 reduces_S64x2048_S64 (.inl rfl) rfl

theorem blkRowSum_at (H : FVec Ideal S64x2048 .f32) (p : Fin 64) : blkRowSum H (ix1 p) = ∑ j : Fin 2048, row H p j :=
  laneSum_at H 0x00000000#32 reduces_S64x2048_S64 (.inl rfl) rfl p

/-- A block's row means, kept as a column. -/
def blkMeanCol (H : FVec Ideal S64x2048 .f32) : FVec Ideal S64x1 .f32 :=
  divf (shapeCast S64x1 (blkRowSum H) shapeCasts_S64_S64x1) (broadcast S64x1 (Scalar.ofBits .f32 0x45000000#32))

theorem blkMeanCol_at (H : FVec Ideal S64x2048 .f32) (p : Fin 64) (u : Fin 1) : blkMeanCol H (ix2 p u) = mean (row H p) :=
  congrArg (Ideal.div · (Ideal.ofBits .f32 0x45000000#32))
    ((shapeCast_a_a1_apply (blkRowSum H) shapeCasts_S64_S64x1 p u).trans (blkRowSum_at H p))

/-- The centred block: each row minus its mean. -/
def blkCentred (H : FVec Ideal S64x2048 .f32) : FVec Ideal S64x2048 .f32 :=
  subf H (broadcastTo S64x2048 (blkMeanCol H) broadcasts_S64x1_S64x2048)

theorem blkCentred_row (H : FVec Ideal S64x2048 .f32) (p : Fin 64) : row (blkCentred H) p = centred (row H p) := by
  funext j
  show H (ix2 p j) - broadcastTo S64x2048 (blkMeanCol H) broadcasts_S64x1_S64x2048 (ix2 p j) = row H p j - mean (row H p)
  rw [show broadcastTo S64x2048 (blkMeanCol H) broadcasts_S64x1_S64x2048 (ix2 p j) = mean (row H p) from
    (broadcastTo_a1_ab_apply (blkMeanCol H) broadcasts_S64x1_S64x2048 p j).trans (blkMeanCol_at H p 0)]
  rfl

/-- The row sums of the centred block's squares. -/
theorem sqSum_at (H : FVec Ideal S64x2048 .f32) (p : Fin 64) :
    blkRowSum (mulf (blkCentred H) (blkCentred H)) (ix1 p) = ∑ j : Fin 2048, centred (row H p) j * centred (row H p) j :=
  (blkRowSum_at _ p).trans (Finset.sum_congr rfl fun j _ => by
    show row (blkCentred H) p j * row (blkCentred H) p j = _
    rw [blkCentred_row])

/-! ## The normalisation at an entry -/

/-- The normalisation's tail over any pre-normalisation block `H`, the one scale row `G` and the one shift row `B`, in
    the shape the value leg states it (each value at its own index of entry `(p, q)`), is `normed` of row `p`. -/
theorem normTail_at (H : FVec Ideal S64x2048 .f32) (G B : FVec Ideal S1x2048 .f32) (p : Fin 64) (q : Fin 2048) :
    FloatOps.addf (FloatOps.mulf (FloatOps.mulf
        (FloatOps.subf (H (ix14_0 (ix2 p q))) (FloatOps.divf (blkRowSum H (ix14_1 (ix2 p q))) (Scalar.ofBits .f32 0x45000000#32)))
        (FloatOps.rsqrt (FloatOps.addf
          (FloatOps.divf (blkRowSum (mulf (blkCentred H) (blkCentred H)) (ix14_2 (ix2 p q))) (Scalar.ofBits .f32 0x45000000#32))
          (Scalar.ofBits .f32 0x3727C5AC#32))))
        (G (ix14_3 (ix2 p q)))) (B (ix14_4 (ix2 p q)))
      = normed (row H p) (row0 G) (row0 B) q := by
  rw [ix14_0_at, ix14_1_at, ix14_2_at, ix14_3_at, ix14_4_at, blkRowSum_at, sqSum_at]
  rfl

/-- Entry `(p, q)` of what a grid point stores, from the body's loads. -/
theorem E14_at (P0 : FVec Ideal S64x2048 .f32) (P1 : FVec Ideal S64x1024 .f32) (P2 : FVec Ideal S1024x4096 .bf16)
    (P3 : FVec Ideal S2048x4096 .bf16) (P4 : FVec Ideal S1024x4096 .bf16) (P5 P6 : FVec Ideal S4096x16 .bf16)
    (P7 : FVec Ideal S4096x128 .bf16) (P8 : FVec Ideal S128x4096 .bf16) (P9 P10 : FVec Ideal S1x4096 .f32)
    (P11 : FVec Ideal S4096x2048 .bf16) (P12 P13 : FVec Ideal S1x2048 .f32) (p : Fin 64) (q : Fin 2048) :
    E14 (F := Ideal) P0 P1 P2 P3 P4 P5 P6 P7 P8 P9 P10 P11 P12 P13 (ix2 p q)
      = rowOut (row P1 p) (row P0 p) (colT P2) (colT P4) (colT P3) (colT P7) (colT P5) (colT P6) (colT P8) (row0 P9) (row0 P10)
          (colT P11) (row0 P12) (row0 P13) q := by
  refine (normTail_at (k0_pay10 (F := Ideal) P0 (k0_pay3 P1 P0 P2 P3) (k0_pay4 P1 P4) (k0_pay6 P1 P0 P2 P3 P5) (k0_pay7 P1 P0 P2 P3 P6)
    (k0_pay8 P1 P0 P2 P3 P7 P8) (shapeCast S1x4096 P9 shapeCasts_S1x4096_S1x4096) P10 P11) P12 P13 p q).trans ?_
  rw [pay10_row, pay3_row, pay4_row, pay6_row, pay7_row, pay8_row, shapeCast_self]
  rfl

/-! ## What a point stores, over any blocks -/

theorem zero_offsets : (![0, 0] : Fin 2 → Nat) = fun _ => 0 := funext fun a => by fin_cases a <;> rfl

/-- The block a grid point leaves in the output window's buffer, from the fourteen input blocks it finds there, at
    entry `(p, q)`: `rowOut` of row `p` of the input block `x0` and of the hidden block `x1`, the weight blocks read as
    transposes, the four one-row blocks read as rows. (Each load is through the whole-buffer rectangle at offset zero, so
    it reads the block itself; the one store covers the buffer, so the buffer holds its payload.) -/
theorem out14_at (x0 : FVec Ideal S64x1024 .f32) (x1 : FVec Ideal S64x2048 .f32) (x2 x3 : FVec Ideal S1024x4096 .bf16)
    (x4 : FVec Ideal S2048x4096 .bf16) (x5 : FVec Ideal S4096x128 .bf16) (x6 x7 : FVec Ideal S4096x16 .bf16)
    (x8 : FVec Ideal S128x4096 .bf16) (x9 x10 : FVec Ideal S1x4096 .f32) (x11 : FVec Ideal S4096x2048 .bf16)
    (x12 x13 : FVec Ideal S1x2048 .f32) (p : Fin 64) (q : Fin 2048) :
    out0_14 (F := Ideal) x0 x1 x2 x3 x4 x5 x6 x7 x8 x9 x10 x11 x12 x13 (ix2 p q)
      = rowOut (row x0 p) (row x1 p) (colT x2) (colT x3) (colT x4) (colT x5) (colT x6) (colT x7) (colT x8) (row0 x9) (row0 x10)
          (colT x11) (row0 x12) (row0 x13) q := by
  unfold out0_14
  rw [canon14_eq]
  simp only [View.ld_unit_zero (S := S64x1024) zero_offsets, View.ld_unit_zero (S := S64x2048) zero_offsets,
    View.ld_unit_zero (S := S1024x4096) zero_offsets, View.ld_unit_zero (S := S2048x4096) zero_offsets,
    View.ld_unit_zero (S := S4096x128) zero_offsets, View.ld_unit_zero (S := S4096x16) zero_offsets,
    View.ld_unit_zero (S := S128x4096) zero_offsets, View.ld_unit_zero (S := S1x4096) zero_offsets,
    View.ld_unit_zero (S := S4096x2048) zero_offsets, View.ld_unit_zero (S := S1x2048) zero_offsets]
  exact E14_at x1 x0 x2 x4 x3 x6 x7 x5 x8 x9 x10 x11 x12 x13 p q

end Cert.KernelIdeal.RowValue

end
-- ==== Proof.ArraySpec.lean ====
/-
  The result array as ONE function of the argument arrays.

  Row `b` of the result is `rowOut` of row `b` of the input `x` and of the previous hidden state `h`, with every
  weight matrix read row-wise as it is given: the input projection `W_in` (8192×1024) in its two bands of 4096 rows, the
  state projection `W_state` (4096×2048), the mixed row's projection `W_xproj` (160×4096) in its bands of 128, 16 and 16
  rows, the step-size projection `W_dt` (4096×128) and bias `b_dt`, the skip weights `D`, the output projection `W_out`
  (2048×4096), and the normalisation's scale and shift. (The twelfth argument of both programs, `A_log`, is read by
  neither.) Both programs are shown to end at this function: the kernel block by block, the reference stage by stage.
-/
import proofs.«100958_j43224550867081_2_alg».proof.Proof.RowSpec

noncomputable section

namespace Cert.GatedStep

open Idealize.ShloMosaic Idealize.ShloMosaic.ValueIdx

/-- A matrix read row-wise. -/
def rows {a b : Nat} (A : (⟨2, ![a, b]⟩ : Shape).Idx → EReal) : Fin a → Fin b → EReal := fun o k => A (ix2 o k)

/-- The `n` rows of a matrix from row `off` on, read row-wise. -/
def band {a b : Nat} (off n : Nat) (hn : off + n ≤ a) (A : (⟨2, ![a, b]⟩ : Shape).Idx → EReal) : Fin n → Fin b → EReal :=
  fun o k => A (ix2 ⟨off + o.val, by have := o.isLt; omega⟩ k)

/-- The first `n` rows of a matrix, read row-wise. -/
def top {a b : Nat} (n : Nat) (hn : n ≤ a) (A : (⟨2, ![a, b]⟩ : Shape).Idx → EReal) : Fin n → Fin b → EReal :=
  fun o k => A (ix2 ⟨o.val, by have := o.isLt; omega⟩ k)

/-- A vector read entry by entry. -/
def vec {a : Nat} (v : (⟨1, ![a]⟩ : Shape).Idx → EReal) : Fin a → EReal := fun d => v (ix1 d)

/-- Entry `(b, q)` of the result. -/
def resultAt (x : (⟨2, ![4096, 1024]⟩ : Shape).Idx → EReal) (h : (⟨2, ![4096, 2048]⟩ : Shape).Idx → EReal)
    (Win : (⟨2, ![8192, 1024]⟩ : Shape).Idx → EReal) (Wst : (⟨2, ![4096, 2048]⟩ : Shape).Idx → EReal)
    (Wxp : (⟨2, ![160, 4096]⟩ : Shape).Idx → EReal) (Wdt : (⟨2, ![4096, 128]⟩ : Shape).Idx → EReal)
    (bdt Dv : (⟨1, ![4096]⟩ : Shape).Idx → EReal) (Wout : (⟨2, ![2048, 4096]⟩ : Shape).Idx → EReal)
    (ga be : (⟨1, ![2048]⟩ : Shape).Idx → EReal) (b : Fin 4096) (q : Fin 2048) : EReal :=
  rowOut (row x b) (row h b) (top 4096 (by decide) Win) (band 4096 4096 (by decide) Win) (rows Wst)
    (top 128 (by decide) Wxp) (band 128 16 (by decide) Wxp) (band 144 16 (by decide) Wxp) (rows Wdt) (vec bdt) (vec Dv)
    (rows Wout) (vec ga) (vec be) q

/-- The result array. -/
def result (x : (⟨2, ![4096, 1024]⟩ : Shape).Idx → EReal) (h : (⟨2, ![4096, 2048]⟩ : Shape).Idx → EReal)
    (Win : (⟨2, ![8192, 1024]⟩ : Shape).Idx → EReal) (Wst : (⟨2, ![4096, 2048]⟩ : Shape).Idx → EReal)
    (Wxp : (⟨2, ![160, 4096]⟩ : Shape).Idx → EReal) (Wdt : (⟨2, ![4096, 128]⟩ : Shape).Idx → EReal)
    (bdt Dv : (⟨1, ![4096]⟩ : Shape).Idx → EReal) (Wout : (⟨2, ![2048, 4096]⟩ : Shape).Idx → EReal)
    (ga be : (⟨1, ![2048]⟩ : Shape).Idx → EReal) : (⟨2, ![4096, 2048]⟩ : Shape).Idx → EReal :=
  fun i => resultAt x h Win Wst Wxp Wdt bdt Dv Wout ga be (i 0) (i 1)

theorem result_ix2 (x : (⟨2, ![4096, 1024]⟩ : Shape).Idx → EReal) (h : (⟨2, ![4096, 2048]⟩ : Shape).Idx → EReal)
    (Win : (⟨2, ![8192, 1024]⟩ : Shape).Idx → EReal) (Wst : (⟨2, ![4096, 2048]⟩ : Shape).Idx → EReal)
    (Wxp : (⟨2, ![160, 4096]⟩ : Shape).Idx → EReal) (Wdt : (⟨2, ![4096, 128]⟩ : Shape).Idx → EReal)
    (bdt Dv : (⟨1, ![4096]⟩ : Shape).Idx → EReal) (Wout : (⟨2, ![2048, 4096]⟩ : Shape).Idx → EReal)
    (ga be : (⟨1, ![2048]⟩ : Shape).Idx → EReal) (b : Fin 4096) (q : Fin 2048) :
    result x h Win Wst Wxp Wdt bdt Dv Wout ga be (ix2 b q) = resultAt x h Win Wst Wxp Wdt bdt Dv Wout ga be b q := rfl

end Cert.GatedStep

end
-- ==== Proof.KernelBlocks.lean ====
/-
  From blocks to the array: the kernel's result is `Cert.GatedStep.result` of its argument arrays.

  The launch has 64 grid points. Point `t` stages rows `64 t … 64 t + 63` of the input and of the previous hidden
  state, finds every weight array whole in its buffer, and writes back rows `64 t … 64 t + 63` of the result. The weight
  arrays the region finds are the host's re-layings of the arguments — a band of rows cut out, transposed, a change of
  float format (the identity on the extended reals), or a vector laid out as one row — so each, read as the transpose
  it holds, is a band of an argument read row-wise. What a point stores at entry `(p, q)` of its block is then `rowOut`
  of row `64 t + p` of the arguments, which is entry `(64 t + p, q)` of `result`; the 64 blocks tile the 4096 rows, so the
  array after the run is `result` everywhere.
-/
import proofs.«100958_j43224550867081_2_alg».proof.Proof.Gen.KernelIdeal.Value
import proofs.«100958_j43224550867081_2_alg».proof.Proof.KernelNorm
import proofs.«100958_j43224550867081_2_alg».proof.Proof.ArraySpec
import Idealize.ShloMosaic.Lib.StableHlo.Run
import Idealize.ShloMosaic.Lib.ValueLayout

set_option maxRecDepth 16384

noncomputable section

namespace Cert.KernelIdeal.RowValue

open Cert.KernelIdeal Cert.KernelIdeal.Gen Cert.KernelIdeal.Value Cert.GatedStep
open Idealize.ShloMosaic Idealize.ShloMosaic.ValueIdx Idealize.ShloMosaic.TcCoe Idealize.SL.Sem
open Idealize.ShloMosaic.Pipeline (Dat)

variable (m : (ℓ : Loc nD τ sig) → Buf (Elt Ideal) ℓ) (ρ : Dev nD → PrngReg)

/-! ## The arguments, and the result they determine -/

abbrev aX (c : Dev nD) : FVec Ideal S4096x1024 .f32 := m ((c : Thread nD τ).loc main_arg0)
abbrev aH (c : Dev nD) : FVec Ideal S4096x2048 .f32 := m ((c : Thread nD τ).loc main_arg1)
abbrev aWin (c : Dev nD) : FVec Ideal S8192x1024 .f32 := m ((c : Thread nD τ).loc main_arg2)
abbrev aWst (c : Dev nD) : FVec Ideal S4096x2048 .f32 := m ((c : Thread nD τ).loc main_arg3)
abbrev aWxp (c : Dev nD) : FVec Ideal S160x4096 .f32 := m ((c : Thread nD τ).loc main_arg4)
abbrev aWdt (c : Dev nD) : FVec Ideal S4096x128 .f32 := m ((c : Thread nD τ).loc main_arg5)
abbrev aBdt (c : Dev nD) : FVec Ideal S4096 .f32 := m ((c : Thread nD τ).loc main_arg6)
abbrev aD (c : Dev nD) : FVec Ideal S4096 .f32 := m ((c : Thread nD τ).loc main_arg8)
abbrev aWout (c : Dev nD) : FVec Ideal S2048x4096 .f32 := m ((c : Thread nD τ).loc main_arg9)
abbrev aGa (c : Dev nD) : FVec Ideal S2048 .f32 := m ((c : Thread nD τ).loc main_arg10)
abbrev aBe (c : Dev nD) : FVec Ideal S2048 .f32 := m ((c : Thread nD τ).loc main_arg11)

/-- The result array core `c`'s arguments determine. -/
def kernelResult (c : Dev nD) : FVec Ideal S4096x2048 .f32 :=
  result (aX m c) (aH m c) (aWin m c) (aWst m c) (aWxp m c) (aWdt m c) (aBdt m c) (aD m c) (aWout m c) (aGa m c) (aBe m c)

/-! ## What the region finds in each weight array -/

theorem V_v2 (c : Dev nD) : (V m c main_v2 : FVec Ideal S1024x4096 .bf16)
    = truncf .bf16 (transpose S1024x4096 [1, 0] (extractStridedSlice S4096x1024 ![0, 0] (aWin m c) slices_S8192x1024_S4096x1024_0_0)
        transposes_S4096x1024_S1024x4096_1_0) bitsLt_bf16_f32 := by
  dsimp only [V, hostOps0]; after_results <;> rfl
theorem V_v5 (c : Dev nD) : (V m c main_v5 : FVec Ideal S1024x4096 .bf16)
    = truncf .bf16 (transpose S1024x4096 [1, 0] (extractStridedSlice S4096x1024 ![4096, 0] (aWin m c) slices_S8192x1024_S4096x1024_4096_0)
        transposes_S4096x1024_S1024x4096_1_0) bitsLt_bf16_f32 := by
  dsimp only [V, hostOps0]; after_results <;> rfl
theorem V_v7 (c : Dev nD) : (V m c main_v7 : FVec Ideal S2048x4096 .bf16)
    = truncf .bf16 (transpose S2048x4096 [1, 0] (aWst m c) transposes_S4096x2048_S2048x4096_1_0) bitsLt_bf16_f32 := by
  dsimp only [V, hostOps0]; after_results <;> rfl
theorem V_v10 (c : Dev nD) : (V m c main_v10 : FVec Ideal S4096x128 .bf16)
    = truncf .bf16 (transpose S4096x128 [1, 0] (extractStridedSlice S128x4096 ![0, 0] (aWxp m c) slices_S160x4096_S128x4096_0_0)
        transposes_S128x4096_S4096x128_1_0) bitsLt_bf16_f32 := by
  dsimp only [V, hostOps0]; after_results <;> rfl
theorem V_v13 (c : Dev nD) : (V m c main_v13 : FVec Ideal S4096x16 .bf16)
    = truncf .bf16 (transpose S4096x16 [1, 0] (extractStridedSlice S16x4096 ![128, 0] (aWxp m c) slices_S160x4096_S16x4096_128_0)
        transposes_S16x4096_S4096x16_1_0) bitsLt_bf16_f32 := by
  dsimp only [V, hostOps0]; after_results <;> rfl
theorem V_v16 (c : Dev nD) : (V m c main_v16 : FVec Ideal S4096x16 .bf16)
    = truncf .bf16 (transpose S4096x16 [1, 0] (extractStridedSlice S16x4096 ![144, 0] (aWxp m c) slices_S160x4096_S16x4096_144_0)
        transposes_S16x4096_S4096x16_1_0) bitsLt_bf16_f32 := by
  dsimp only [V, hostOps0]; after_results <;> rfl
theorem V_v18 (c : Dev nD) : (V m c main_v18 : FVec Ideal S128x4096 .bf16)
    = truncf .bf16 (transpose S128x4096 [1, 0] (aWdt m c) transposes_S4096x128_S128x4096_1_0) bitsLt_bf16_f32 := by
  dsimp only [V, hostOps0]; after_results <;> rfl
theorem V_v20 (c : Dev nD) : (V m c main_v20 : FVec Ideal S4096x2048 .bf16)
    = truncf .bf16 (transpose S4096x2048 [1, 0] (aWout m c) transposes_S2048x4096_S4096x2048_1_0) bitsLt_bf16_f32 := by
  dsimp only [V, hostOps0]; after_results <;> rfl
theorem V_v21 (c : Dev nD) : (V m c main_v21 : FVec Ideal S1x4096 .f32) = shapeCast S1x4096 (aBdt m c) shapeCasts_S4096_S1x4096 := by
  dsimp only [V, hostOps0]; after_results <;> rfl
theorem V_v22 (c : Dev nD) : (V m c main_v22 : FVec Ideal S1x4096 .f32) = shapeCast S1x4096 (aD m c) shapeCasts_S4096_S1x4096 := by
  dsimp only [V, hostOps0]; after_results <;> rfl
theorem V_v23 (c : Dev nD) : (V m c main_v23 : FVec Ideal S1x2048 .f32) = shapeCast S1x2048 (aGa m c) shapeCasts_S2048_S1x2048 := by
  dsimp only [V, hostOps0]; after_results <;> rfl
theorem V_v24 (c : Dev nD) : (V m c main_v24 : FVec Ideal S1x2048 .f32) = shapeCast S1x2048 (aBe m c) shapeCasts_S2048_S1x2048 := by
  dsimp only [V, hostOps0]; after_results <;> rfl

/-! ## Each, read as the transpose it holds, is a band of an argument read row-wise -/

theorem rd_v2 (c : Dev nD) : colT (V m c main_v2 : FVec Ideal S1024x4096 .bf16) = top 4096 (by decide) (aWin m c) := by
  funext d k
  show V m c main_v2 (ix2 k d) = _
  rw [V_v2]
  show transpose S1024x4096 [1, 0] (extractStridedSlice S4096x1024 ![0, 0] (aWin m c) slices_S8192x1024_S4096x1024_0_0) transposes_S4096x1024_S1024x4096_1_0 (ix2 k d) = _
  rw [transpose_ix2_apply]
  exact slice2_axis0_apply 0 (aWin m c) slices_S8192x1024_S4096x1024_0_0 d k ⟨d.val, by have := d.isLt; omega⟩ (Nat.zero_add _).symm
theorem rd_v5 (c : Dev nD) : colT (V m c main_v5 : FVec Ideal S1024x4096 .bf16) = band 4096 4096 (by decide) (aWin m c) := by
  funext d k
  show V m c main_v5 (ix2 k d) = _
  rw [V_v5]
  show transpose S1024x4096 [1, 0] (extractStridedSlice S4096x1024 ![4096, 0] (aWin m c) slices_S8192x1024_S4096x1024_4096_0) transposes_S4096x1024_S1024x4096_1_0 (ix2 k d) = _
  rw [transpose_ix2_apply]
  exact slice2_axis0_eq 4096 (aWin m c) slices_S8192x1024_S4096x1024_4096_0 d k
theorem rd_v7 (c : Dev nD) : colT (V m c main_v7 : FVec Ideal S2048x4096 .bf16) = rows (aWst m c) := by
  funext d k
  show V m c main_v7 (ix2 k d) = _
  rw [V_v7]
  show transpose S2048x4096 [1, 0] (aWst m c) transposes_S4096x2048_S2048x4096_1_0 (ix2 k d) = _
  rw [transpose_ix2_apply]
  rfl
theorem rd_v10 (c : Dev nD) : colT (V m c main_v10 : FVec Ideal S4096x128 .bf16) = top 128 (by decide) (aWxp m c) := by
  funext r d
  show V m c main_v10 (ix2 d r) = _
  rw [V_v10]
  show transpose S4096x128 [1, 0] (extractStridedSlice S128x4096 ![0, 0] (aWxp m c) slices_S160x4096_S128x4096_0_0) transposes_S128x4096_S4096x128_1_0 (ix2 d r) = _
  rw [transpose_ix2_apply]
  exact slice2_axis0_apply 0 (aWxp m c) slices_S160x4096_S128x4096_0_0 r d ⟨r.val, by have := r.isLt; omega⟩ (Nat.zero_add _).symm
theorem rd_v13 (c : Dev nD) : colT (V m c main_v13 : FVec Ideal S4096x16 .bf16) = band 128 16 (by decide) (aWxp m c) := by
  funext n d
  show V m c main_v13 (ix2 d n) = _
  rw [V_v13]
  show transpose S4096x16 [1, 0] (extractStridedSlice S16x4096 ![128, 0] (aWxp m c) slices_S160x4096_S16x4096_128_0) transposes_S16x4096_S4096x16_1_0 (ix2 d n) = _
  rw [transpose_ix2_apply]
  exact slice2_axis0_eq 128 (aWxp m c) slices_S160x4096_S16x4096_128_0 n d
theorem rd_v16 (c : Dev nD) : colT (V m c main_v16 : FVec Ideal S4096x16 .bf16) = band 144 16 (by decide) (aWxp m c) := by
  funext n d
  show V m c main_v16 (ix2 d n) = _
  rw [V_v16]
  show transpose S4096x16 [1, 0] (extractStridedSlice S16x4096 ![144, 0] (aWxp m c) slices_S160x4096_S16x4096_144_0) transposes_S16x4096_S4096x16_1_0 (ix2 d n) = _
  rw [transpose_ix2_apply]
  exact slice2_axis0_eq 144 (aWxp m c) slices_S160x4096_S16x4096_144_0 n d
theorem rd_v18 (c : Dev nD) : colT (V m c main_v18 : FVec Ideal S128x4096 .bf16) = rows (aWdt m c) := by
  funext d r
  show V m c main_v18 (ix2 r d) = _
  rw [V_v18]
  show transpose S128x4096 [1, 0] (aWdt m c) transposes_S4096x128_S128x4096_1_0 (ix2 r d) = _
  rw [transpose_ix2_apply]
  rfl
theorem rd_v20 (c : Dev nD) : colT (V m c main_v20 : FVec Ideal S4096x2048 .bf16) = rows (aWout m c) := by
  funext j d
  show V m c main_v20 (ix2 d j) = _
  rw [V_v20]
  show transpose S4096x2048 [1, 0] (aWout m c) transposes_S2048x4096_S4096x2048_1_0 (ix2 d j) = _
  rw [transpose_ix2_apply]
  rfl
theorem rd_v21 (c : Dev nD) : row0 (V m c main_v21 : FVec Ideal S1x4096 .f32) = vec (aBdt m c) := by
  funext d
  show V m c main_v21 (ix2 (0 : Fin 1) d) = _
  rw [V_v21]
  exact shapeCast_a_1a_apply (aBdt m c) shapeCasts_S4096_S1x4096 0 d
theorem rd_v22 (c : Dev nD) : row0 (V m c main_v22 : FVec Ideal S1x4096 .f32) = vec (aD m c) := by
  funext d
  show V m c main_v22 (ix2 (0 : Fin 1) d) = _
  rw [V_v22]
  exact shapeCast_a_1a_apply (aD m c) shapeCasts_S4096_S1x4096 0 d
theorem rd_v23 (c : Dev nD) : row0 (V m c main_v23 : FVec Ideal S1x2048 .f32) = vec (aGa m c) := by
  funext d
  show V m c main_v23 (ix2 (0 : Fin 1) d) = _
  rw [V_v23]
  exact shapeCast_a_1a_apply (aGa m c) shapeCasts_S2048_S1x2048 0 d
theorem rd_v24 (c : Dev nD) : row0 (V m c main_v24 : FVec Ideal S1x2048 .f32) = vec (aBe m c) := by
  funext d
  show V m c main_v24 (ix2 (0 : Fin 1) d) = _
  rw [V_v24]
  exact shapeCast_a_1a_apply (aBe m c) shapeCasts_S2048_S1x2048 0 d

/-! ## The blocks at a grid point -/

/-- The printed index maps, decided over the 64 points: the two moving inputs and the output are at block row `t`,
    block column `0`; every weight window is at block `(0, 0)`. -/
theorem idx_facts : ∀ t : Fin cfg0.N,
    win0_0.index t (0 : Fin 2) = t.val
    ∧ win0_0.index t (1 : Fin 2) = 0
    ∧ win0_1.index t (0 : Fin 2) = t.val
    ∧ win0_1.index t (1 : Fin 2) = 0
    ∧ win0_14.index t (0 : Fin 2) = t.val
    ∧ win0_14.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0
    ∧ win0_10.index t (0 : Fin 2) = 0
    ∧ win0_10.index t (1 : Fin 2) = 0
    ∧ win0_11.index t (0 : Fin 2) = 0
    ∧ win0_11.index t (1 : Fin 2) = 0
    ∧ win0_12.index t (0 : Fin 2) = 0
    ∧ win0_12.index t (1 : Fin 2) = 0
    ∧ win0_13.index t (0 : Fin 2) = 0
    ∧ win0_13.index t (1 : Fin 2) = 0 :=
  (by decide +kernel : ∀ t : Fin grid0.N, _)

/-- Window 2 stages its whole array at every point: its one block is the array. -/
theorem blk2 (c : Dev nD) (t : Fin cfg0.N) : (iblk m c 2 t : FVec Ideal S1024x4096 .bf16) = V m c main_v2 := by
  funext y
  show V m c main_v2 (((cfg0.win 2).blk t).view.emb y) = V m c main_v2 y
  refine congrArg (V m c main_v2) ?_
  obtain ⟨e0, e1, e2, e3, e4, e5, e6, e7, e8, e9, e10, e11, e12, e13, e14, e15, e16, e17, e18, e19, e20, e21, e22, e23, e24, e25, e26, e27, e28, e29⟩ := idx_facts t
  funext a; apply Fin.ext
  match a with
  | ⟨0, _⟩ => show win0_2.index t (0 : Fin 2) * 1024 + 1 * (y 0).val = (y 0).val; omega
  | ⟨1, _⟩ => show win0_2.index t (1 : Fin 2) * 4096 + 1 * (y 1).val = (y 1).val; omega

/-- Window 3 stages its whole array at every point: its one block is the array. -/
theorem blk3 (c : Dev nD) (t : Fin cfg0.N) : (iblk m c 3 t : FVec Ideal S1024x4096 .bf16) = V m c main_v5 := by
  funext y
  show V m c main_v5 (((cfg0.win 3).blk t).view.emb y) = V m c main_v5 y
  refine congrArg (V m c main_v5) ?_
  obtain ⟨e0, e1, e2, e3, e4, e5, e6, e7, e8, e9, e10, e11, e12, e13, e14, e15, e16, e17, e18, e19, e20, e21, e22, e23, e24, e25, e26, e27, e28, e29⟩ := idx_facts t
  funext a; apply Fin.ext
  match a with
  | ⟨0, _⟩ => show win0_3.index t (0 : Fin 2) * 1024 + 1 * (y 0).val = (y 0).val; omega
  | ⟨1, _⟩ => show win0_3.index t (1 : Fin 2) * 4096 + 1 * (y 1).val = (y 1).val; omega

/-- Window 4 stages its whole array at every point: its one block is the array. -/
theorem blk4 (c : Dev nD) (t : Fin cfg0.N) : (iblk m c 4 t : FVec Ideal S2048x4096 .bf16) = V m c main_v7 := by
  funext y
  show V m c main_v7 (((cfg0.win 4).blk t).view.emb y) = V m c main_v7 y
  refine congrArg (V m c main_v7) ?_
  obtain ⟨e0, e1, e2, e3, e4, e5, e6, e7, e8, e9, e10, e11, e12, e13, e14, e15, e16, e17, e18, e19, e20, e21, e22, e23, e24, e25, e26, e27, e28, e29⟩ := idx_facts t
  funext a; apply Fin.ext
  match a with
  | ⟨0, _⟩ => show win0_4.index t (0 : Fin 2) * 2048 + 1 * (y 0).val = (y 0).val; omega
  | ⟨1, _⟩ => show win0_4.index t (1 : Fin 2) * 4096 + 1 * (y 1).val = (y 1).val; omega

/-- Window 5 stages its whole array at every point: its one block is the array. -/
theorem blk5 (c : Dev nD) (t : Fin cfg0.N) : (iblk m c 5 t : FVec Ideal S4096x128 .bf16) = V m c main_v10 := by
  funext y
  show V m c main_v10 (((cfg0.win 5).blk t).view.emb y) = V m c main_v10 y
  refine congrArg (V m c main_v10) ?_
  obtain ⟨e0, e1, e2, e3, e4, e5, e6, e7, e8, e9, e10, e11, e12, e13, e14, e15, e16, e17, e18, e19, e20, e21, e22, e23, e24, e25, e26, e27, e28, e29⟩ := idx_facts t
  funext a; apply Fin.ext
  match a with
  | ⟨0, _⟩ => show win0_5.index t (0 : Fin 2) * 4096 + 1 * (y 0).val = (y 0).val; omega
  | ⟨1, _⟩ => show win0_5.index t (1 : Fin 2) * 128 + 1 * (y 1).val = (y 1).val; omega

/-- Window 6 stages its whole array at every point: its one block is the array. -/
theorem blk6 (c : Dev nD) (t : Fin cfg0.N) : (iblk m c 6 t : FVec Ideal S4096x16 .bf16) = V m c main_v13 := by
  funext y
  show V m c main_v13 (((cfg0.win 6).blk t).view.emb y) = V m c main_v13 y
  refine congrArg (V m c main_v13) ?_
  obtain ⟨e0, e1, e2, e3, e4, e5, e6, e7, e8, e9, e10, e11, e12, e13, e14, e15, e16, e17, e18, e19, e20, e21, e22, e23, e24, e25, e26, e27, e28, e29⟩ := idx_facts t
  funext a; apply Fin.ext
  match a with
  | ⟨0, _⟩ => show win0_6.index t (0 : Fin 2) * 4096 + 1 * (y 0).val = (y 0).val; omega
  | ⟨1, _⟩ => show win0_6.index t (1 : Fin 2) * 16 + 1 * (y 1).val = (y 1).val; omega

/-- Window 7 stages its whole array at every point: its one block is the array. -/
theorem blk7 (c : Dev nD) (t : Fin cfg0.N) : (iblk m c 7 t : FVec Ideal S4096x16 .bf16) = V m c main_v16 := by
  funext y
  show V m c main_v16 (((cfg0.win 7).blk t).view.emb y) = V m c main_v16 y
  refine congrArg (V m c main_v16) ?_
  obtain ⟨e0, e1, e2, e3, e4, e5, e6, e7, e8, e9, e10, e11, e12, e13, e14, e15, e16, e17, e18, e19, e20, e21, e22, e23, e24, e25, e26, e27, e28, e29⟩ := idx_facts t
  funext a; apply Fin.ext
  match a with
  | ⟨0, _⟩ => show win0_7.index t (0 : Fin 2) * 4096 + 1 * (y 0).val = (y 0).val; omega
  | ⟨1, _⟩ => show win0_7.index t (1 : Fin 2) * 16 + 1 * (y 1).val = (y 1).val; omega

/-- Window 8 stages its whole array at every point: its one block is the array. -/
theorem blk8 (c : Dev nD) (t : Fin cfg0.N) : (iblk m c 8 t : FVec Ideal S128x4096 .bf16) = V m c main_v18 := by
  funext y
  show V m c main_v18 (((cfg0.win 8).blk t).view.emb y) = V m c main_v18 y
  refine congrArg (V m c main_v18) ?_
  obtain ⟨e0, e1, e2, e3, e4, e5, e6, e7, e8, e9, e10, e11, e12, e13, e14, e15, e16, e17, e18, e19, e20, e21, e22, e23, e24, e25, e26, e27, e28, e29⟩ := idx_facts t
  funext a; apply Fin.ext
  match a with
  | ⟨0, _⟩ => show win0_8.index t (0 : Fin 2) * 128 + 1 * (y 0).val = (y 0).val; omega
  | ⟨1, _⟩ => show win0_8.index t (1 : Fin 2) * 4096 + 1 * (y 1).val = (y 1).val; omega

/-- Window 9 stages its whole array at every point: its one block is the array. -/
theorem blk9 (c : Dev nD) (t : Fin cfg0.N) : (iblk m c 9 t : FVec Ideal S1x4096 .f32) = V m c main_v21 := by
  funext y
  show V m c main_v21 (((cfg0.win 9).blk t).view.emb y) = V m c main_v21 y
  refine congrArg (V m c main_v21) ?_
  obtain ⟨e0, e1, e2, e3, e4, e5, e6, e7, e8, e9, e10, e11, e12, e13, e14, e15, e16, e17, e18, e19, e20, e21, e22, e23, e24, e25, e26, e27, e28, e29⟩ := idx_facts t
  funext a; apply Fin.ext
  match a with
  | ⟨0, _⟩ => show win0_9.index t (0 : Fin 2) * 1 + 1 * (y 0).val = (y 0).val; omega
  | ⟨1, _⟩ => show win0_9.index t (1 : Fin 2) * 4096 + 1 * (y 1).val = (y 1).val; omega

/-- Window 10 stages its whole array at every point: its one block is the array. -/
theorem blk10 (c : Dev nD) (t : Fin cfg0.N) : (iblk m c 10 t : FVec Ideal S1x4096 .f32) = V m c main_v22 := by
  funext y
  show V m c main_v22 (((cfg0.win 10).blk t).view.emb y) = V m c main_v22 y
  refine congrArg (V m c main_v22) ?_
  obtain ⟨e0, e1, e2, e3, e4, e5, e6, e7, e8, e9, e10, e11, e12, e13, e14, e15, e16, e17, e18, e19, e20, e21, e22, e23, e24, e25, e26, e27, e28, e29⟩ := idx_facts t
  funext a; apply Fin.ext
  match a with
  | ⟨0, _⟩ => show win0_10.index t (0 : Fin 2) * 1 + 1 * (y 0).val = (y 0).val; omega
  | ⟨1, _⟩ => show win0_10.index t (1 : Fin 2) * 4096 + 1 * (y 1).val = (y 1).val; omega

/-- Window 11 stages its whole array at every point: its one block is the array. -/
theorem blk11 (c : Dev nD) (t : Fin cfg0.N) : (iblk m c 11 t : FVec Ideal S4096x2048 .bf16) = V m c main_v20 := by
  funext y
  show V m c main_v20 (((cfg0.win 11).blk t).view.emb y) = V m c main_v20 y
  refine congrArg (V m c main_v20) ?_
  obtain ⟨e0, e1, e2, e3, e4, e5, e6, e7, e8, e9, e10, e11, e12, e13, e14, e15, e16, e17, e18, e19, e20, e21, e22, e23, e24, e25, e26, e27, e28, e29⟩ := idx_facts t
  funext a; apply Fin.ext
  match a with
  | ⟨0, _⟩ => show win0_11.index t (0 : Fin 2) * 4096 + 1 * (y 0).val = (y 0).val; omega
  | ⟨1, _⟩ => show win0_11.index t (1 : Fin 2) * 2048 + 1 * (y 1).val = (y 1).val; omega

/-- Window 12 stages its whole array at every point: its one block is the array. -/
theorem blk12 (c : Dev nD) (t : Fin cfg0.N) : (iblk m c 12 t : FVec Ideal S1x2048 .f32) = V m c main_v23 := by
  funext y
  show V m c main_v23 (((cfg0.win 12).blk t).view.emb y) = V m c main_v23 y
  refine congrArg (V m c main_v23) ?_
  obtain ⟨e0, e1, e2, e3, e4, e5, e6, e7, e8, e9, e10, e11, e12, e13, e14, e15, e16, e17, e18, e19, e20, e21, e22, e23, e24, e25, e26, e27, e28, e29⟩ := idx_facts t
  funext a; apply Fin.ext
  match a with
  | ⟨0, _⟩ => show win0_12.index t (0 : Fin 2) * 1 + 1 * (y 0).val = (y 0).val; omega
  | ⟨1, _⟩ => show win0_12.index t (1 : Fin 2) * 2048 + 1 * (y 1).val = (y 1).val; omega

/-- Window 13 stages its whole array at every point: its one block is the array. -/
theorem blk13 (c : Dev nD) (t : Fin cfg0.N) : (iblk m c 13 t : FVec Ideal S1x2048 .f32) = V m c main_v24 := by
  funext y
  show V m c main_v24 (((cfg0.win 13).blk t).view.emb y) = V m c main_v24 y
  refine congrArg (V m c main_v24) ?_
  obtain ⟨e0, e1, e2, e3, e4, e5, e6, e7, e8, e9, e10, e11, e12, e13, e14, e15, e16, e17, e18, e19, e20, e21, e22, e23, e24, e25, e26, e27, e28, e29⟩ := idx_facts t
  funext a; apply Fin.ext
  match a with
  | ⟨0, _⟩ => show win0_13.index t (0 : Fin 2) * 1 + 1 * (y 0).val = (y 0).val; omega
  | ⟨1, _⟩ => show win0_13.index t (1 : Fin 2) * 2048 + 1 * (y 1).val = (y 1).val; omega

/-- Row `p` of the input block at point `t` is row `64 t + p` of the input. -/
theorem blk0_row (c : Dev nD) (t : Fin cfg0.N) (p : Fin 64) (b : Fin 4096) (hb : b.val = t.val * 64 + p.val) :
    row (iblk m c 0 t : FVec Ideal S64x1024 .f32) p = row (aX m c) b := by
  funext k
  show V m c main_arg0 (((cfg0.win 0).blk t).view.emb (ix2 p k)) = aX m c (ix2 b k)
  rw [V_main_arg0]
  refine congrArg (aX m c) ?_
  obtain ⟨e0, e1, e2, e3, e4, e5, e6, e7, e8, e9, e10, e11, e12, e13, e14, e15, e16, e17, e18, e19, e20, e21, e22, e23, e24, e25, e26, e27, e28, e29⟩ := idx_facts t
  funext a; apply Fin.ext
  match a with
  | ⟨0, _⟩ => show win0_0.index t (0 : Fin 2) * 64 + 1 * p.val = b.val; omega
  | ⟨1, _⟩ => show win0_0.index t (1 : Fin 2) * 1024 + 1 * k.val = k.val; omega

/-- Row `p` of the hidden block at point `t` is row `64 t + p` of the previous hidden state. -/
theorem blk1_row (c : Dev nD) (t : Fin cfg0.N) (p : Fin 64) (b : Fin 4096) (hb : b.val = t.val * 64 + p.val) :
    row (iblk m c 1 t : FVec Ideal S64x2048 .f32) p = row (aH m c) b := by
  funext k
  show V m c main_arg1 (((cfg0.win 1).blk t).view.emb (ix2 p k)) = aH m c (ix2 b k)
  rw [V_main_arg1]
  refine congrArg (aH m c) ?_
  obtain ⟨e0, e1, e2, e3, e4, e5, e6, e7, e8, e9, e10, e11, e12, e13, e14, e15, e16, e17, e18, e19, e20, e21, e22, e23, e24, e25, e26, e27, e28, e29⟩ := idx_facts t
  funext a; apply Fin.ext
  match a with
  | ⟨0, _⟩ => show win0_1.index t (0 : Fin 2) * 64 + 1 * p.val = b.val; omega
  | ⟨1, _⟩ => show win0_1.index t (1 : Fin 2) * 2048 + 1 * k.val = k.val; omega

/-- Entry `(p, q)` of the output block at point `t` is entry `(64 t + p, q)` of the result array. -/
theorem blk14_emb (t : Fin cfg0.N) (p : Fin 64) (q : Fin 2048) (b : Fin 4096) (hb : b.val = t.val * 64 + p.val) :
    ((cfg0.win 14).blk t).view.emb (ix2 p q) = (ix2 b q : S4096x2048.Idx) := by
  obtain ⟨e0, e1, e2, e3, e4, e5, e6, e7, e8, e9, e10, e11, e12, e13, e14, e15, e16, e17, e18, e19, e20, e21, e22, e23, e24, e25, e26, e27, e28, e29⟩ := idx_facts t
  funext a; apply Fin.ext
  match a with
  | ⟨0, _⟩ => show win0_14.index t (0 : Fin 2) * 64 + 1 * p.val = b.val; omega
  | ⟨1, _⟩ => show win0_14.index t (1 : Fin 2) * 2048 + 1 * q.val = q.val; omega

/-! ## What a point writes back, the cover, and the array after the run -/

/-- WHAT POINT `t` WRITES BACK is block `t` of the result array. -/
theorem flushed_eq (c : Dev nD) (t : Fin cfg0.N) :
    (dats m 0 c).flushed 14 t = ((cfg0.win 14).blk t).view.read (Elt Ideal) (kernelResult m c) := by
  rw [Value.flushed14]
  funext y
  obtain ⟨p, q, rfl⟩ : ∃ (p : Fin 64) (q : Fin 2048), y = ix2 p q := ⟨y 0, y 1, eq_ix2 y⟩
  have hN : t.val < 64 := lt_of_lt_of_eq t.isLt N_0
  have hb : t.val * 64 + p.val < 4096 := by have := p.isLt; omega
  show out0_14 (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (iblk m c 12 t) (iblk m c 13 t) (ix2 p q)
    = kernelResult m c (((cfg0.win 14).blk t).view.emb (ix2 p q))
  refine (out14_at (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (iblk m c 12 t) (iblk m c 13 t) p q).trans ?_
  rw [blk14_emb t p q ⟨t.val * 64 + p.val, hb⟩ rfl, blk0_row m c t p ⟨t.val * 64 + p.val, hb⟩ rfl, blk1_row m c t p ⟨t.val * 64 + p.val, hb⟩ rfl,
    blk2 m c t, blk3 m c t, blk4 m c t, blk5 m c t, blk6 m c t, blk7 m c t, blk8 m c t, blk9 m c t, blk10 m c t, blk11 m c t, blk12 m c t, blk13 m c t,
    rd_v2 m c, rd_v5 m c, rd_v7 m c, rd_v10 m c, rd_v13 m c, rd_v16 m c, rd_v18 m c, rd_v21 m c, rd_v22 m c, rd_v20 m c, rd_v23 m c, rd_v24 m c]
  rfl

/-- An index of the result array is in point `t`'s block iff each coordinate is in the block's range on its axis. -/
theorem mem_blk14 (t : Fin cfg0.N) (i : S4096x2048.Idx) :
    i ∈ ((cfg0.win 14).blk t).view.set ↔ ∀ a : Fin 2, win0_14.index t a * S64x2048.size a ≤ (i a).val ∧ (i a).val < win0_14.index t a * S64x2048.size a + S64x2048.size a := by
  show i ∈ ((View.whole main_v25).slice (win0_14.rect t)).set ↔ _
  rw [View.set_slice_whole, Rect.mem_set_unit]
  exact Iff.rfl

/-- Every block row is some point's (decided over the 64 points). -/
theorem idx_onto : ∀ r : Fin 64, ∃ t : Fin cfg0.N, win0_14.index t = ![r.val, 0] :=
  (by decide +kernel : ∀ r : Fin 64, ∃ t : Fin grid0.N, win0_14.index t = ![r.val, 0])

/-- The 64 blocks of 64 rows tile the 4096 rows: every index is in the block of point `row / 64`. -/
theorem cover (i : S4096x2048.Idx) : ∃ t : Fin cfg0.N, (cfg0.win 14).flush t = true ∧ i ∈ ((cfg0.win 14).blk t).view.set := by
  have hi0 : (i 0).val < 4096 := (i 0).isLt
  have hi1 : (i 1).val < 2048 := (i 1).isLt
  obtain ⟨t, ht⟩ := idx_onto ⟨(i 0).val / 64, by omega⟩
  have q0 : win0_14.index t (0 : Fin 2) = (i 0).val / 64 := congrFun ht 0
  have q1 : win0_14.index t (1 : Fin 2) = 0 := congrFun ht 1
  refine ⟨t, flush0_14 t, ?_⟩
  rw [mem_blk14]
  intro a
  match a with
  | ⟨0, _⟩ => show win0_14.index t (0 : Fin 2) * 64 ≤ (i 0).val ∧ (i 0).val < win0_14.index t (0 : Fin 2) * 64 + 64; omega
  | ⟨1, _⟩ => show win0_14.index t (1 : Fin 2) * 2048 ≤ (i 1).val ∧ (i 1).val < win0_14.index t (1 : Fin 2) * 2048 + 2048; omega

/-- THE ARRAY after the run is the result array. -/
theorem final (c : Dev nD) : (dats m 0 c).arrAt 14 cfg0.N = kernelResult m c :=
  (dats m 0 c).arrAt_eq_of_cover 14 (kernelResult m c) (fun t _ => flushed_eq m c t) cover

/-- The kernel's run: every weakly fair execution terminates with the result buffer at `kernelResult` and the
    arguments unchanged. -/
theorem run : θ_run defs (onTc (τ := τ) (main (F := Ideal))) ⟨m, fun _ => 0, ρ⟩ fun r => ∀ c : Dev nD,
      r.2.mem ((c : Thread nD τ).loc main_v25) = kernelResult m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨(h c).1.trans (final m c), (h c).2⟩) (Value.run_blocks m ρ)

end Cert.KernelIdeal.RowValue

end
-- ==== Proof.RefStages.lean ====
/-
  The reference, stage by stage, is `Cert.GatedStep.result` of its arguments.

  The reference computes on whole arrays what the specification says of one row. Its stages are read here at a row
  `b` through the index-by-index readings of its operations: a matrix product against a transposed weight array is the
  row's projection through the weights read row-wise; a band of columns cut out of a product is the projection through
  the matching band of weight rows; the logistic function spelt as `1 / (1 + e^(-a))` and the guarded softplus are the
  specification's scalars; a sum over the last axis kept as a column and broadcast back is the row's sum; and the
  one-row broadcasts of the bias, the skip weights, the scale and the shift read the vectors entry by entry.
  Every index equation below is between two indices with the same coordinates.
-/
import proofs.«100958_j43224550867081_2_alg».proof.Proof.RefReadPatched
import proofs.«100958_j43224550867081_2_alg».proof.Proof.ArraySpec

set_option maxRecDepth 16384

noncomputable section

namespace Cert.ReferenceIdeal.RefValue

open Cert.ReferenceIdeal Cert.ReferenceIdeal.ReadP Cert.GatedStep
open Idealize.ShloMosaic Idealize.ShloMosaic.ValueIdx

/-- Two rank-2 indices with the same coordinates are equal. -/
macro "ix2_rfl" : tactic => `(tactic| (funext a; apply Fin.ext; match a with | ⟨0, _⟩ => rfl | ⟨1, _⟩ => rfl))
/-- Two rank-1 indices with the same coordinate are equal. -/
macro "ix1_rfl" : tactic => `(tactic| (funext a; apply Fin.ext; match a with | ⟨0, _⟩ => rfl))

variable (x0 : FVec Ideal S4096x1024 .f32) (x1 : FVec Ideal S4096x2048 .f32) (x2 : FVec Ideal S8192x1024 .f32)
  (x3 : FVec Ideal S4096x2048 .f32) (x4 : FVec Ideal S160x4096 .f32) (x5 : FVec Ideal S4096x128 .f32)
  (x6 x8 : FVec Ideal S4096 .f32) (x9 : FVec Ideal S2048x4096 .f32) (x10 x11 : FVec Ideal S2048 .f32)

/-- The f32 zero word is the extended real `0`, in the spelling the stages carry it. -/
theorem zero_word : FloatOps.ofBits (F := Ideal) .f32 0x00000000#32 = (0 : EReal) := Ideal.ofBits_zero_f32

/-! ## The input's two projections and the hidden row's -/

theorem st_v2 (b : Fin 4096) (d : Fin 4096) :
    val_main_v2 (F := Ideal) x0 x2 (ix2 b d) = proj (row x0 b) (top 4096 (by decide) x2) d := by
  rw [val_main_v2_apply, val_main_v1_apply]
  refine Finset.sum_congr rfl fun k _ => ?_
  rw [val_main_v0_apply]
  exact congrArg₂ (· * ·)
    (congrArg x0 (show lidx_main_v1 (idx_main_v2 (ix2 b d)) k = ix2 b k by ix2_rfl))
    (congrArg x2 (show idx_main_v0 (ridx_main_v1 (idx_main_v2 (ix2 b d)) k) = ix2 ⟨d.val, by have := d.isLt; omega⟩ k by ix2_rfl))

theorem st_v3 (b : Fin 4096) (d : Fin 4096) :
    val_main_v3 (F := Ideal) x0 x2 (ix2 b d) = proj (row x0 b) (band 4096 4096 (by decide) x2) d := by
  rw [val_main_v3_apply, val_main_v1_apply]
  refine Finset.sum_congr rfl fun k _ => ?_
  rw [val_main_v0_apply]
  exact congrArg₂ (· * ·)
    (congrArg x0 (show lidx_main_v1 (idx_main_v3 (ix2 b d)) k = ix2 b k by ix2_rfl))
    (congrArg x2 (show idx_main_v0 (ridx_main_v1 (idx_main_v3 (ix2 b d)) k) = ix2 ⟨4096 + d.val, by have := d.isLt; omega⟩ k by ix2_rfl))

theorem st_v5 (b : Fin 4096) (d : Fin 4096) :
    val_main_v5 (F := Ideal) x1 x3 (ix2 b d) = proj (row x1 b) (rows x3) d := by
  rw [val_main_v5_apply]
  refine Finset.sum_congr rfl fun k _ => ?_
  rw [val_main_v4_apply]
  exact congrArg₂ (· * ·)
    (congrArg x1 (show lidx_main_v5 (ix2 b d) k = ix2 b k by ix2_rfl))
    (congrArg x3 (show idx_main_v4 (ridx_main_v5 (ix2 b d) k) = ix2 d k by ix2_rfl))

/-! ## The mixed row and the gate -/

theorem st_v7 (b : Fin 4096) :
    row (val_main_v7 (F := Ideal) x0 x1 x2 x3) b = mixed (row x0 b) (row x1 b) (top 4096 (by decide) x2) (rows x3) := by
  funext d
  show val_main_v7 (F := Ideal) x0 x1 x2 x3 (ix2 b d) = silu (proj (row x0 b) (top 4096 (by decide) x2) d + proj (row x1 b) (rows x3) d)
  rw [val_main_v7_apply, val_main_call0_v5_apply, val_main_call0_v4_apply, val_main_call0_cst_0_apply, val_main_call0_v3_apply,
    val_main_call0_v2_apply, val_main_call0_cst_apply, val_main_call0_v1_apply, val_main_call0_v0_apply, val_main_v6_apply,
    st_v2, st_v5]
  exact silu_spelt _

theorem st_v29 (b : Fin 4096) (d : Fin 4096) :
    val_main_v29 (F := Ideal) x0 x2 (ix2 b d) = silu (proj (row x0 b) (band 4096 4096 (by decide) x2) d) := by
  rw [val_main_v29_apply, val_main_call2_v5_apply, val_main_call2_v4_apply, val_main_call2_cst_0_apply, val_main_call2_v3_apply,
    val_main_call2_v2_apply, val_main_call2_cst_apply, val_main_call2_v1_apply, val_main_call2_v0_apply, st_v3]
  exact silu_spelt _

/-! ## The mixed row's projection and its three bands -/

theorem st_v9 (b : Fin 4096) (r : Fin 160) :
    val_main_v9 (F := Ideal) x0 x1 x2 x3 x4 (ix2 b r)
      = proj (mixed (row x0 b) (row x1 b) (top 4096 (by decide) x2) (rows x3)) (rows x4) r := by
  rw [val_main_v9_apply]
  refine Finset.sum_congr rfl fun k _ => ?_
  rw [val_main_v8_apply, ← st_v7]
  exact congrArg₂ (· * ·)
    (congrArg (val_main_v7 (F := Ideal) x0 x1 x2 x3) (show lidx_main_v9 (ix2 b r) k = ix2 b k by ix2_rfl))
    (congrArg x4 (show idx_main_v8 (ridx_main_v9 (ix2 b r) k) = ix2 r k by ix2_rfl))

theorem st_v10 (b : Fin 4096) (r : Fin 128) :
    val_main_v10 (F := Ideal) x0 x1 x2 x3 x4 (ix2 b r)
      = proj (mixed (row x0 b) (row x1 b) (top 4096 (by decide) x2) (rows x3)) (top 128 (by decide) x4) r := by
  rw [val_main_v10_apply]
  exact (congrArg (val_main_v9 (F := Ideal) x0 x1 x2 x3 x4)
    (show idx_main_v10 (ix2 b r) = ix2 b ⟨r.val, by have := r.isLt; omega⟩ by ix2_rfl)).trans (st_v9 x0 x1 x2 x3 x4 b _)

theorem st_v11 (b : Fin 4096) (n : Fin 16) :
    val_main_v11 (F := Ideal) x0 x1 x2 x3 x4 (ix2 b n)
      = proj (mixed (row x0 b) (row x1 b) (top 4096 (by decide) x2) (rows x3)) (band 128 16 (by decide) x4) n := by
  rw [val_main_v11_apply]
  exact (congrArg (val_main_v9 (F := Ideal) x0 x1 x2 x3 x4)
    (show idx_main_v11 (ix2 b n) = ix2 b ⟨128 + n.val, by have := n.isLt; omega⟩ by ix2_rfl)).trans (st_v9 x0 x1 x2 x3 x4 b _)

theorem st_v12 (b : Fin 4096) (n : Fin 16) :
    val_main_v12 (F := Ideal) x0 x1 x2 x3 x4 (ix2 b n)
      = proj (mixed (row x0 b) (row x1 b) (top 4096 (by decide) x2) (rows x3)) (band 144 16 (by decide) x4) n := by
  rw [val_main_v12_apply]
  exact (congrArg (val_main_v9 (F := Ideal) x0 x1 x2 x3 x4)
    (show idx_main_v12 (ix2 b n) = ix2 b ⟨144 + n.val, by have := n.isLt; omega⟩ by ix2_rfl)).trans (st_v9 x0 x1 x2 x3 x4 b _)

/-! ## The step size -/

theorem st_v14 (b : Fin 4096) (d : Fin 4096) :
    val_main_v14 (F := Ideal) x0 x1 x2 x3 x4 x5 (ix2 b d)
      = proj (proj (mixed (row x0 b) (row x1 b) (top 4096 (by decide) x2) (rows x3)) (top 128 (by decide) x4)) (rows x5) d := by
  rw [val_main_v14_apply]
  refine Finset.sum_congr rfl fun k _ => ?_
  rw [val_main_v13_apply]
  exact congrArg₂ (· * ·)
    ((congrArg (val_main_v10 (F := Ideal) x0 x1 x2 x3 x4) (show lidx_main_v14 (ix2 b d) k = ix2 b k by ix2_rfl)).trans
      (st_v10 x0 x1 x2 x3 x4 b k))
    (congrArg x5 (show idx_main_v13 (ridx_main_v14 (ix2 b d) k) = ix2 d k by ix2_rfl))

theorem st_v18 (b : Fin 4096) :
    row (val_main_v18 (F := Ideal) x0 x1 x2 x3 x4 x5 x6) b
      = stepSize (proj (mixed (row x0 b) (row x1 b) (top 4096 (by decide) x2) (rows x3)) (top 128 (by decide) x4)) (rows x5) (vec x6) := by
  funext d
  show val_main_v18 (F := Ideal) x0 x1 x2 x3 x4 x5 x6 (ix2 b d) = softplus (_ + vec x6 d)
  rw [val_main_v18_apply, val_main_call1_v4_apply, val_main_call1_v6_apply, val_main_call1_v11_apply, val_main_call1_v1_apply,
    val_main_call1_v10_apply, val_main_call1_v9_apply, val_main_call1_v8_apply, val_main_call1_v7_apply, val_main_call1_v3_apply,
    val_main_call1_v0_apply, val_main_call1_v2_apply, val_main_call1_v5_apply, val_main_call1_cst_apply, val_main_v17_apply,
    val_main_v16_apply, val_main_v15_apply, st_v14, zero_word,
    show x6 (idx_main_v15 (idx_main_v16 (ix2 b d))) = vec x6 d from congrArg x6 (by ix1_rfl)]
  exact softplus_guard_neg _ (cmp_une_self _) _

/-! ## The coupling -/

theorem st_v20 (b : Fin 4096) :
    val_main_v20 (F := Ideal) x0 x1 x2 x3 x4 (ix1 b)
      = coupling (proj (mixed (row x0 b) (row x1 b) (top 4096 (by decide) x2) (rows x3)) (band 128 16 (by decide) x4))
          (proj (mixed (row x0 b) (row x1 b) (top 4096 (by decide) x2) (rows x3)) (band 144 16 (by decide) x4)) := by
  rw [val_main_v20_apply, val_main_cst_apply, zero_word, zero_add]
  refine Finset.sum_congr rfl fun n _ => ?_
  rw [val_main_v19_apply, show idx_main_v20 (ix1 b) n = ix2 b n by ix2_rfl, st_v11, st_v12]
  rfl

theorem st_v23 (b : Fin 4096) (d : Fin 4096) :
    val_main_v23 (F := Ideal) x0 x1 x2 x3 x4 (ix2 b d)
      = coupling (proj (mixed (row x0 b) (row x1 b) (top 4096 (by decide) x2) (rows x3)) (band 128 16 (by decide) x4))
          (proj (mixed (row x0 b) (row x1 b) (top 4096 (by decide) x2) (rows x3)) (band 144 16 (by decide) x4)) := by
  rw [val_main_v23_apply, val_main_v21_apply, show idx_main_v21 (idx_main_v23 (ix2 b d)) = ix1 b by ix1_rfl, st_v20]

/-! ## The gated row and the updated hidden row -/

theorem st_v30 (b : Fin 4096) :
    row (val_main_v30 (F := Ideal) x0 x1 x2 x3 x4 x5 x6 x8) b
      = gated (mixed (row x0 b) (row x1 b) (top 4096 (by decide) x2) (rows x3))
          (stepSize (proj (mixed (row x0 b) (row x1 b) (top 4096 (by decide) x2) (rows x3)) (top 128 (by decide) x4)) (rows x5) (vec x6))
          (coupling (proj (mixed (row x0 b) (row x1 b) (top 4096 (by decide) x2) (rows x3)) (band 128 16 (by decide) x4))
            (proj (mixed (row x0 b) (row x1 b) (top 4096 (by decide) x2) (rows x3)) (band 144 16 (by decide) x4)))
          (vec x8) (proj (row x0 b) (band 4096 4096 (by decide) x2)) := by
  funext d
  show val_main_v30 (F := Ideal) x0 x1 x2 x3 x4 x5 x6 x8 (ix2 b d) = _
  rw [val_main_v30_apply, val_main_v28_apply, val_main_v24_apply, val_main_v22_apply, val_main_v27_apply, val_main_v26_apply,
    val_main_v25_apply, st_v29, st_v23,
    show val_main_v18 (F := Ideal) x0 x1 x2 x3 x4 x5 x6 (ix2 b d) = row (val_main_v18 (F := Ideal) x0 x1 x2 x3 x4 x5 x6) b d from rfl,
    show val_main_v7 (F := Ideal) x0 x1 x2 x3 (ix2 b d) = row (val_main_v7 (F := Ideal) x0 x1 x2 x3) b d from rfl,
    st_v18, st_v7,
    show x8 (idx_main_v25 (idx_main_v26 (ix2 b d))) = vec x8 d from congrArg x8 (by ix1_rfl)]
  rfl

theorem st_v33 (b : Fin 4096) :
    row (val_main_v33 (F := Ideal) x0 x1 x2 x3 x4 x5 x6 x8 x9) b
      = updated (row (val_main_v30 (F := Ideal) x0 x1 x2 x3 x4 x5 x6 x8) b) (rows x9) (row x1 b) := by
  funext j
  show val_main_v33 (F := Ideal) x0 x1 x2 x3 x4 x5 x6 x8 x9 (ix2 b j) = proj (row (val_main_v30 (F := Ideal) x0 x1 x2 x3 x4 x5 x6 x8) b) (rows x9) j + row x1 b j
  rw [val_main_v33_apply, val_main_v32_apply]
  refine congrArg₂ (· + ·) (Finset.sum_congr rfl fun k _ => ?_) rfl
  rw [val_main_v31_apply]
  exact congrArg₂ (· * ·)
    (congrArg (val_main_v30 (F := Ideal) x0 x1 x2 x3 x4 x5 x6 x8) (show lidx_main_v32 (ix2 b j) k = ix2 b k by ix2_rfl))
    (congrArg x9 (show idx_main_v31 (ridx_main_v32 (ix2 b j) k) = ix2 j k by ix2_rfl))

/-! ## The normalisation -/

theorem st_v37 (b : Fin 4096) (u : Fin 1) :
    val_main_v37 (F := Ideal) x0 x1 x2 x3 x4 x5 x6 x8 x9 (ix2 b u) = mean (row (val_main_v33 (F := Ideal) x0 x1 x2 x3 x4 x5 x6 x8 x9) b) := by
  rw [val_main_v37_apply, val_main_v35_apply, val_main_v34_apply, val_main_cst_0_apply, val_main_v36_apply, val_main_cst_1_apply,
    zero_word, zero_add]
  refine congrArg (Ideal.div · (Ideal.ofBits .f32 0x45000000#32)) (Finset.sum_congr rfl fun k _ => ?_)
  exact congrArg (val_main_v33 (F := Ideal) x0 x1 x2 x3 x4 x5 x6 x8 x9) (show idx_main_v34 (idx_main_v35 (ix2 b u)) k = ix2 b k by ix2_rfl)

theorem st_v39 (b : Fin 4096) (j : Fin 2048) :
    val_main_v39 (F := Ideal) x0 x1 x2 x3 x4 x5 x6 x8 x9 (ix2 b j) = centred (row (val_main_v33 (F := Ideal) x0 x1 x2 x3 x4 x5 x6 x8 x9) b) j := by
  rw [val_main_v39_apply, val_main_v38_apply, show idx_main_v38 (ix2 b j) = ix2 b (0 : Fin 1) by ix2_rfl, st_v37]
  rfl

theorem st_v46 (b : Fin 4096) (j : Fin 2048) :
    val_main_v46 (F := Ideal) x0 x1 x2 x3 x4 x5 x6 x8 x9 (ix2 b j) = centred (row (val_main_v33 (F := Ideal) x0 x1 x2 x3 x4 x5 x6 x8 x9) b) j := by
  rw [val_main_v46_apply, val_main_v45_apply, show idx_main_v45 (ix2 b j) = ix2 b (0 : Fin 1) by ix2_rfl, st_v37]
  rfl

theorem st_v44 (b : Fin 4096) (u : Fin 1) :
    val_main_v44 (F := Ideal) x0 x1 x2 x3 x4 x5 x6 x8 x9 (ix2 b u)
      = mean (fun j => centred (row (val_main_v33 (F := Ideal) x0 x1 x2 x3 x4 x5 x6 x8 x9) b) j * centred (row (val_main_v33 (F := Ideal) x0 x1 x2 x3 x4 x5 x6 x8 x9) b) j) := by
  rw [val_main_v44_apply, val_main_v42_apply, val_main_v41_apply, val_main_cst_2_apply, val_main_v43_apply, val_main_cst_3_apply,
    zero_word, zero_add]
  refine congrArg (Ideal.div · (Ideal.ofBits .f32 0x45000000#32)) (Finset.sum_congr rfl fun k _ => ?_)
  rw [val_main_v40_apply, show idx_main_v41 (idx_main_v42 (ix2 b u)) k = ix2 b k by ix2_rfl, st_v39]
  rfl

theorem st_v57 (b : Fin 4096) (q : Fin 2048) :
    val_main_v57 (F := Ideal) x0 x1 x2 x3 x4 x5 x6 x8 x9 x10 x11 (ix2 b q) = normed (row (val_main_v33 (F := Ideal) x0 x1 x2 x3 x4 x5 x6 x8 x9) b) (vec x10) (vec x11) q := by
  rw [val_main_v57_apply, val_main_v54_apply, val_main_v51_apply, val_main_v50_apply, val_main_v49_apply, val_main_v48_apply,
    val_main_v47_apply, val_main_cst_4_apply, val_main_v56_apply, val_main_v55_apply, val_main_v53_apply, val_main_v52_apply,
    st_v46, show idx_main_v50 (ix2 b q) = ix2 b (0 : Fin 1) by ix2_rfl, st_v44,
    show x10 (idx_main_v52 (idx_main_v53 (ix2 b q))) = vec x10 q from congrArg x10 (by ix1_rfl),
    show x11 (idx_main_v55 (idx_main_v56 (ix2 b q))) = vec x11 q from congrArg x11 (by ix1_rfl)]
  rfl

/-! ## The reference's result -/

/-- The reference's last stage is the result array of its arguments. -/
theorem ref_result : val_main_v57 (F := Ideal) x0 x1 x2 x3 x4 x5 x6 x8 x9 x10 x11 = result x0 x1 x2 x3 x4 x5 x6 x8 x9 x10 x11 := by
  funext i
  obtain ⟨b, q, rfl⟩ : ∃ (b : Fin 4096) (q : Fin 2048), i = ix2 b q := ⟨i 0, i 1, eq_ix2 i⟩
  rw [st_v57, st_v33, st_v30]
  rfl

end Cert.ReferenceIdeal.RefValue

end
-- ==== Proof.lean ====
/-
  The certificate of one step of a gated state-space block: a Pallas kernel against its jnp reference, equal as
  functions on the extended reals.

  One batch row `x` (1024 entries) with the previous hidden row `h` (2048 entries) goes to
  `LayerNorm (y · W_outᵀ + h)`, where `y = (dt ⊙ u · ⟨B, C⟩ + D ⊙ u) ⊙ silu z`, `u = silu (x · W_xᵀ + h · W_stateᵀ)` is the mixed
  row, `z = x · W_zᵀ` the gate (`W_x`, `W_z` the two halves of the input projection), `dt = softplus ((u · W_loᵀ) · W_dtᵀ + b_dt)`
  the step size, and `B = u · W_Bᵀ`, `C = u · W_Cᵀ` two 16-entry state vectors (`W_lo`, `W_B`, `W_C` three bands of one
  projection). The kernel tiles the 4096 rows in 64 blocks of 64 and keeps every weight array, transposed and cut into
  its bands on the host, resident; the reference multiplies whole arrays and cuts the bands out of the products. On the
  extended reals a change of float format is the identity, a matrix product is a sum of products in either program, and
  the logistic function, the softplus with its guard, the division by `2048` and the reciprocal root are the same
  functions on both sides; a band of a product is the product with the band. So both programs end at ONE function of the
  arguments, `Cert.GatedStep.result`, and no step needs an argument to be finite: the precondition is never opened.

  The kernel's side: Proof/KernelRow.lean and KernelNorm.lean read what one grid point stores, entry by entry;
  Proof/KernelBlocks.lean reads the weight arrays the region finds and tiles the blocks into the array. The reference's
  side: Proof/RefStages.lean. The specification: Proof/RowSpec.lean (a row) and ArraySpec.lean (the array).
-/
import proofs.«100958_j43224550867081_2_alg».proof.Defs
import proofs.«100958_j43224550867081_2_alg».proof.Proof.Gen.Kernel
import proofs.«100958_j43224550867081_2_alg».proof.Proof.Gen.Kernel.Skeleton
import proofs.«100958_j43224550867081_2_alg».proof.Proof.Gen.Kernel.Launch
import proofs.«100958_j43224550867081_2_alg».proof.Proof.Gen.Kernel.Points
import proofs.«100958_j43224550867081_2_alg».proof.Proof.Gen.Kernel.Frame
import proofs.«100958_j43224550867081_2_alg».proof.Proof.Gen.KernelIdeal
import proofs.«100958_j43224550867081_2_alg».proof.Proof.Gen.KernelIdeal.Skeleton
import proofs.«100958_j43224550867081_2_alg».proof.Proof.Gen.KernelIdeal.Launch
import proofs.«100958_j43224550867081_2_alg».proof.Proof.Gen.KernelIdeal.Points
import proofs.«100958_j43224550867081_2_alg».proof.Proof.Gen.KernelIdeal.Frame
import proofs.«100958_j43224550867081_2_alg».proof.Proof.Gen.ReferenceIdeal
import proofs.«100958_j43224550867081_2_alg».proof.Proof.Gen.Pre_finite_inputs
import proofs.«100958_j43224550867081_2_alg».proof.Proof.Gen.KernelIdeal.Value
import proofs.«100958_j43224550867081_2_alg».proof.Proof.RefRunPatched
import proofs.«100958_j43224550867081_2_alg».proof.Proof.RefReadPatched
import proofs.«100958_j43224550867081_2_alg».proof.Proof.KernelBlocks
import proofs.«100958_j43224550867081_2_alg».proof.Proof.RefStages
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- The reference's run, with what it says of the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- The ideal reading rewrote no operation of the kernel: there is nothing to preserve. -/
theorem preserves : Cert.preserves_Kernel_KernelIdeal := trivial

/-- From memories that agree on the arguments, the kernel's result buffer ends at `result` of its arguments (its run,
    block by block) and the reference's at `result` of its own (its run, stage by stage): the same array. -/
theorem algebraic : Cert.algebraic_KernelIdeal_ReferenceIdeal := by
  intro m ρ m' ρ' _ hagree
  refine ⟨fun c => Cert.KernelIdeal.RowValue.kernelResult m c, Cert.KernelIdeal.RowValue.run m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, _, h8, h9, h10, h11⟩ := hagree c
  rw [Cert.ReferenceIdeal.ReadP.val_main_v57_eq, Cert.ReferenceIdeal.RefValue.ref_result, h0, h1, h2, h3, h4, h5, h6, h8, h9, h10, h11]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
